-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S64 : Shape := ⟨1, ![64]⟩
abbrev S1 : Shape := ⟨1, ![1]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S_ .f32) (main_cst_19 : FVec F S_ .f32) : IVec S_ 1 :=
  let main_v50 : IVec S_ 1 := cmpf .une main_v49 main_cst_19
  let main_v51 : IVec S_ 1 := andi main_v48 main_v50
  main_v51

def fn_part2 {F : FTy → Type} [FloatOps F] (main_arg0 : FVec F S1048576 .f32) (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0xFF800000#32
  let main_v49 : FVec F S_ .f32 := (fun x v => Host.reduce FloatOps.maximumf x v reducesTo_S1048576_S_d0 h_S_) main_arg0 main_cst_18
  let main_cst_19 : FVec F S_ .f32 := constant S_ .f32 0x00000000#32
  fn_part3 (F := F) main_v48 main_v49 main_cst_19

def fn_part1 {F : FTy → Type} [FloatOps F] (main_arg0 : FVec F S1048576 .f32) (main_arg4 : FVec F S64 .f32) (main_arg5 : FVec F S1 .f32) (main_arg6 : FVec F S64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg7 main_arg8 main_arg9 main_v33

def fn {F : FTy → Type} [FloatOps F] (main_arg0 : FVec F S1048576 .f32) (main_arg1 : FVec F S64 .f32) (main_arg2 : FVec F S64 .f32) (main_arg3 : FVec F S64 .f32) (main_arg4 : FVec F S64 .f32) (main_arg5 : FVec F S1 .f32) (main_arg6 : FVec F S64 .f32) (main_arg7 : FVec F S64 .f32) (main_arg8 : FVec F S64 .f32) (main_arg9 : FVec F S64 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg4 main_arg5 main_arg6 main_arg7 main_arg8 main_arg9 main_v13 main_v16
-- ==== Kernel.lean ====
abbrev S1048576 : Shape := ⟨1, ![1048576]⟩
abbrev S64 : Shape := ⟨1, ![64]⟩
abbrev S1 : Shape := ⟨1, ![1]⟩
abbrev S_ : Shape := ⟨0, ![]⟩
abbrev S64x1 : Shape := ⟨2, ![64, 1]⟩
abbrev S64x8 : Shape := ⟨2, ![64, 8]⟩
abbrev S2 : Shape := ⟨1, ![2]⟩
abbrev S1x2 : Shape := ⟨2, ![1, 2]⟩
abbrev S1x1048576 : Shape := ⟨2, ![1, 1048576]⟩
abbrev S1x16384 : Shape := ⟨2, ![1, 16384]⟩
abbrev S1x1 : Shape := ⟨2, ![1, 1]⟩
abbrev S64x16384 : Shape := ⟨2, ![64, 16384]⟩
abbrev S16384 : Shape := ⟨1, ![16384]⟩

abbrev nBuf : Space → Nat
  | .hbm => 116
  | .vmem => 6
  | .smem => 0
  | _ => 0

abbrev bufTy : (tb : Table) → Fin (tcTables nBuf tb) → BufTy
  | .hbm, ⟨0, _⟩ => ⟨S1048576, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S1, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S_, .f32⟩
  | .hbm, ⟨44, _⟩ => ⟨S1, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S64x1, .f32⟩
  | .hbm, ⟨102, _⟩ => ⟨S64x1, .f32⟩
  | .hbm, ⟨103, _⟩ => ⟨S64x1, .f32⟩
  | .hbm, ⟨104, _⟩ => ⟨S64x1, .f32⟩
  | .hbm, ⟨105, _⟩ => ⟨S64x1, .f32⟩
  | .hbm, ⟨106, _⟩ => ⟨S64x1, .f32⟩
  | .hbm, ⟨107, _⟩ => ⟨S64x1, .f32⟩
  | .hbm, ⟨108, _⟩ => ⟨S64x1, .f32⟩
  | .hbm, ⟨109, _⟩ => ⟨S64x8, .f32⟩
  | .hbm, ⟨110, _⟩ => ⟨S1, .f32⟩
  | .hbm, ⟨111, _⟩ => ⟨S2, .f32⟩
  | .hbm, ⟨112, _⟩ => ⟨S1x2, .f32⟩
  | .hbm, ⟨113, _⟩ => ⟨S1x1048576, .f32⟩
  | .hbm, ⟨114, _⟩ => ⟨S1x1048576, .f32⟩
  | .hbm, ⟨115, _⟩ => ⟨S1048576, .f32⟩
  | .local _ .vmem, ⟨0, _⟩ => ⟨S1x16384, .f32⟩
  | .local _ .vmem, ⟨1, _⟩ => ⟨S1x16384, .f32⟩
  | .local _ .vmem, ⟨2, _⟩ => ⟨S64x8, .f32⟩
  | .local _ .vmem, ⟨3, _⟩ => ⟨S1x2, .f32⟩
  | .local _ .vmem, ⟨4, _⟩ => ⟨S1x16384, .f32⟩
  | .local _ .vmem, ⟨5, _⟩ => ⟨S1x16384, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_cst_15 : Ref sig .tc := ⟨.hbm, 73, rfl⟩
abbrev main_v47 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_19 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_20 : Ref sig .tc := ⟨.hbm, 91, rfl⟩
abbrev main_v60 : Ref sig .tc := ⟨.hbm, 92, rfl⟩
abbrev main_v61 : Ref sig .tc := ⟨.hbm, 93, rfl⟩
abbrev main_cst_21 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_cst_23 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1 : S_.BroadcastsInDim S1 (![] : Fin 0 → Fin S1.rank)
  reducesTo_S64_S_d0 : S64.ReducesTo [0] S_
  h_S_ : 0 < S_.numel
  bcast_S1_S64_0 : S1.BroadcastsInDim S64 (![0] : Fin 1 → Fin S64.rank)
  bcast_S_S64 : S_.BroadcastsInDim S64 (![] : Fin 0 → Fin S64.rank)
  reducesTo_S1048576_S_d0 : S1048576.ReducesTo [0] S_
  bcast_S64_S64x1_0 : S64.BroadcastsInDim S64x1 (![0] : Fin 1 → Fin S64x1.rank)
  concatenates_S64x1_S64x1_S64x1_S64x1_S64x1_S64x1_S64x1_S64x1_S64x8_d1 : Shape.Concatenates [S64x1, S64x1, S64x1, S64x1, S64x1, S64x1, S64x1, S64x1] S64x8 1
  shapeCasts_S_S1 : S_.ShapeCasts S1
  concatenates_S1_S1_S2_d0 : Shape.Concatenates [S1, S1] S2 0
  shapeCasts_S2_S1x2 : S2.ShapeCasts S1x2
  shapeCasts_S1048576_S1x1048576 : S1048576.ShapeCasts S1x1048576
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  slices_S1x2_o0_1_S1x1 : S1x2.Slices ![0, 1] S1x1
  slices_S64x8_o0_0_S64x1 : S64x8.Slices ![0, 0] S64x1
  slices_S64x8_o0_1_S64x1 : S64x8.Slices ![0, 1] S64x1
  slices_S64x8_o0_2_S64x1 : S64x8.Slices ![0, 2] S64x1
  slices_S64x8_o0_3_S64x1 : S64x8.Slices ![0, 3] S64x1
  slices_S64x8_o0_4_S64x1 : S64x8.Slices ![0, 4] S64x1
  slices_S64x8_o0_5_S64x1 : S64x8.Slices ![0, 5] S64x1
  slices_S64x8_o0_6_S64x1 : S64x8.Slices ![0, 6] S64x1
  slices_S64x8_o0_7_S64x1 : S64x8.Slices ![0, 7] S64x1
  broadcasts_S1x1_S1x16384 : S1x1.Broadcasts S1x16384
  broadcasts_S64x1_S64x16384 : S64x1.Broadcasts S64x16384
  broadcasts_S1x16384_S64x16384 : S1x16384.Broadcasts S64x16384
  broadcasts_S1x1_S64x16384 : S1x1.Broadcasts S64x16384
  reduces_S64x16384_S16384 : S64x16384.Reduces [0] S16384
  shapeCasts_S16384_S1x16384 : S16384.ShapeCasts S1x16384
  shapeCasts_S1x1048576_S1048576 : S1x1048576.ShapeCasts S1048576
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384.size a ≤ S1x1048576.size a
  hwx0_0 : ∀ i : grid0.Coords, EltTy.bits .f32 = 32 ∨ (Rect.block (s := S1x1048576) S1x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8.size a ≤ S64x8.size a
  hwx0_1 : ∀ i : grid0.Coords, EltTy.bits .f32 = 32 ∨ (Rect.block (s := S64x8) S64x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2.size a ≤ S1x2.size a
  hwx0_2 : ∀ i : grid0.Coords, EltTy.bits .f32 = 32 ∨ (Rect.block (s := S1x2) S1x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x1048576.size a
  hwx0_3 : ∀ i : grid0.Coords, EltTy.bits .f32 = 32 ∨ (Rect.block (s := S1x1048576) S1x16384.size (cc0_transform_3 i) (hinb0_3 i)).WholeWords (EltTy.packing .f32)

variable [Facts₀]

abbrev win0_0 : Pipeline.Window sig grid0 :=
  Pipeline.Window.ofSpec (Memref.whole main_v78) S1x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S64x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v79) S1x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S64 : Shape := ⟨1, ![64]⟩
abbrev S1 : Shape := ⟨1, ![1]⟩
abbrev S_ : Shape := ⟨0, ![]⟩
abbrev S64x1 : Shape := ⟨2, ![64, 1]⟩
abbrev S1x1048576 : Shape := ⟨2, ![1, 1048576]⟩
abbrev S64x1048576 : Shape := ⟨2, ![64, 1048576]⟩
abbrev S1x1 : Shape := ⟨2, ![1, 1]⟩
abbrev S1048576x1 : Shape := ⟨2, ![1048576, 1]⟩
abbrev S1x64 : Shape := ⟨2, ![1, 64]⟩
abbrev S1048576x64 : Shape := ⟨2, ![1048576, 64]⟩

abbrev nBuf : Space → Nat
  | .hbm => 178
  | .vmem => 0
  | .smem => 0
  | _ => 0

abbrev hbmTy0_0 (i : Nat) : BufTy := match i % 128 with
  | 0 => ⟨S1048576, .f32⟩
  | 1 => ⟨S64, .f32⟩
  | 2 => ⟨S64, .f32⟩
  | 3 => ⟨S64, .f32⟩
  | 4 => ⟨S64, .f32⟩
  | 5 => ⟨S1, .f32⟩
  | 6 => ⟨S64, .f32⟩
  | 7 => ⟨S64, .f32⟩
  | 8 => ⟨S64, .f32⟩
  | 9 => ⟨S64, .f32⟩
  | 10 => ⟨S1, .f32⟩
  | 11 => ⟨S1, .f32⟩
  | 12 => ⟨S_, .f32⟩
  | 13 => ⟨S1, .f32⟩
  | 14 => ⟨S1, .f32⟩
  | 15 => ⟨S_, .f32⟩
  | 16 => ⟨S1, .f32⟩
  | 17 => ⟨S1, .f32⟩
  | 18 => ⟨S_, .f32⟩
  | 19 => ⟨S1, .f32⟩
  | 20 => ⟨S1, .f32⟩
  | 21 => ⟨S64x1, .f32⟩
  | 22 => ⟨S_, .f32⟩
  | 23 => ⟨S64x1, .f32⟩
  | 24 => ⟨S64x1, .f32⟩
  | 25 => ⟨S1x1048576, .f32⟩
  | 26 => ⟨S64x1048576, .f32⟩
  | 27 => ⟨S64x1048576, .f32⟩
  | 28 => ⟨S64x1048576, .f32⟩
  | 29 => ⟨S1x1, .f32⟩
  | 30 => ⟨S64x1048576, .f32⟩
  | 31 => ⟨S64x1048576, .f32⟩
  | 32 => ⟨S64x1048576, .f32⟩
  | 33 => ⟨S_, .f32⟩
  | 34 => ⟨S_, .f32⟩
  | 35 => ⟨S_, .f32⟩
  | 36 => ⟨S_, .f32⟩
  | 37 => ⟨S1, .f32⟩
  | 38 => ⟨S64, .f32⟩
  | 39 => ⟨S64, .f32⟩
  | 40 => ⟨S64, .f32⟩
  | 41 => ⟨S_, .f32⟩
  | 42 => ⟨S_, .f32⟩
  | 43 => ⟨S1, .f32⟩
  | 44 => ⟨S64, .f32⟩
  | 45 => ⟨S64, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S_, .f32⟩
  | 61 => ⟨S64, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S_, .f32⟩
  | 69 => ⟨S1048576, .f32⟩
  | 70 => ⟨S1048576, .f32⟩
  | 71 => ⟨S_, .f32⟩
  | 72 => ⟨S1048576, .f32⟩
  | 73 => ⟨S1048576, .f32⟩
  | 74 => ⟨S1048576x1, .f32⟩
  | 75 => ⟨S1x64, .f32⟩
  | 76 => ⟨S1048576x64, .f32⟩
  | 77 => ⟨S1048576x64, .f32⟩
  | 78 => ⟨S1048576x64, .f32⟩
  | 79 => ⟨S64, .f32⟩
  | 80 => ⟨S1x64, .f32⟩
  | 81 => ⟨S1048576x64, .f32⟩
  | 82 => ⟨S1048576x64, .f32⟩
  | 83 => ⟨S1048576x64, .f32⟩
  | 84 => ⟨S_, .f32⟩
  | 85 => ⟨S1048576x64, .f32⟩
  | 86 => ⟨S1048576x64, .f32⟩
  | 87 => ⟨S1048576x64, .f32⟩
  | 88 => ⟨S_, .f32⟩
  | 89 => ⟨S1048576x64, .f32⟩
  | 90 => ⟨S1048576x64, .f32⟩
  | 91 => ⟨S1x64, .f32⟩
  | 92 => ⟨S1048576x64, .f32⟩
  | 93 => ⟨S1048576x64, .f32⟩
  | 94 => ⟨S64x1048576, .f32⟩
  | 95 => ⟨S64x1048576, .f32⟩
  | 96 => ⟨S_, .f32⟩
  | 97 => ⟨S1048576, .f32⟩
  | 98 => ⟨S64x1, .f32⟩
  | 99 => ⟨S_, .f32⟩
  | 100 => ⟨S64x1, .f32⟩
  | 101 => ⟨S64x1, .f32⟩
  | 102 => ⟨S1x1048576, .f32⟩
  | 103 => ⟨S64x1048576, .f32⟩
  | 104 => ⟨S64x1048576, .f32⟩
  | 105 => ⟨S64x1048576, .f32⟩
  | 106 => ⟨S1x1048576, .f32⟩
  | 107 => ⟨S64x1048576, .f32⟩
  | 108 => ⟨S64x1048576, .f32⟩
  | 109 => ⟨S1x1, .f32⟩
  | 110 => ⟨S64x1048576, .f32⟩
  | 111 => ⟨S64x1048576, .f32⟩
  | 112 => ⟨S64x1048576, .f32⟩
  | 113 => ⟨S_, .f32⟩
  | 114 => ⟨S_, .f32⟩
  | 115 => ⟨S_, .f32⟩
  | 116 => ⟨S_, .f32⟩
  | 117 => ⟨S1, .f32⟩
  | 118 => ⟨S64, .f32⟩
  | 119 => ⟨S64, .f32⟩
  | 120 => ⟨S64, .f32⟩
  | 121 => ⟨S_, .f32⟩
  | 122 => ⟨S_, .f32⟩
  | 123 => ⟨S1, .f32⟩
  | 124 => ⟨S64, .f32⟩
  | 125 => ⟨S64, .f32⟩
  | 126 => ⟨S64, .f32⟩
  | 127 => ⟨S64, .f32⟩
  | _ => ⟨S1048576, .f32⟩

abbrev hbmTy0_1 (i : Nat) : BufTy := match i % 128 with
  | 0 => ⟨S_, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S1048576x1, .f32⟩
  | 27 => ⟨S1x64, .f32⟩
  | 28 => ⟨S1048576x64, .f32⟩
  | 29 => ⟨S1048576x64, .f32⟩
  | 30 => ⟨S1048576x64, .f32⟩
  | 31 => ⟨S64, .f32⟩
  | 32 => ⟨S1x64, .f32⟩
  | 33 => ⟨S1048576x64, .f32⟩
  | 34 => ⟨S1048576x64, .f32⟩
  | 35 => ⟨S1048576x64, .f32⟩
  | 36 => ⟨S_, .f32⟩
  | 37 => ⟨S1048576x64, .f32⟩
  | 38 => ⟨S1048576x64, .f32⟩
  | 39 => ⟨S1048576x64, .f32⟩
  | 40 => ⟨S_, .f32⟩
  | 41 => ⟨S1048576x64, .f32⟩
  | 42 => ⟨S1048576x64, .f32⟩
  | 43 => ⟨S1x64, .f32⟩
  | 44 => ⟨S1048576x64, .f32⟩
  | 45 => ⟨S1048576x64, .f32⟩
  | 46 => ⟨S64x1048576, .f32⟩
  | 47 => ⟨S64x1048576, .f32⟩
  | 48 => ⟨S_, .f32⟩
  | 49 => ⟨S1048576, .f32⟩
  | _ => ⟨S1048576, .f32⟩

abbrev hbmTy (i : Nat) : BufTy := match i / 128 with
  | 0 => hbmTy0_0 i
  | 1 => hbmTy0_1 i
  | _ => ⟨S1048576, .f32⟩

abbrev bufTy : (tb : Table) → Fin (tcTables nBuf tb) → BufTy
  | .hbm, ⟨i, _⟩ => hbmTy i
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_13 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_21 : Ref sig .tc := ⟨.hbm, 128, rfl⟩
abbrev main_v96 : Ref sig .tc := ⟨.hbm, 129, rfl⟩
abbrev main_v97 : Ref sig .tc := ⟨.hbm, 130, rfl⟩
abbrev main_cst_22 : Ref sig .tc := ⟨.hbm, 131, rfl⟩
abbrev main_v98 : Ref sig .tc := ⟨.hbm, 132, rfl⟩
abbrev main_v99 : Ref sig .tc := ⟨.hbm, 133, rfl⟩
abbrev main_cst_23 : Ref sig .tc := ⟨.hbm, 134, rfl⟩
abbrev main_v100 : Ref sig .tc := ⟨.hbm, 135, rfl⟩
abbrev main_v101 : Ref sig .tc := ⟨.hbm, 136, rfl⟩
abbrev main_cst_24 : Ref sig .tc := ⟨.hbm, 137, rfl⟩
abbrev main_v102 : Ref sig .tc := ⟨.hbm, 138, rfl⟩
abbrev main_v103 : Ref sig .tc := ⟨.hbm, 139, rfl⟩
abbrev main_cst_25 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_26 : Ref sig .tc := ⟨.hbm, 144, rfl⟩
abbrev main_v107 : Ref sig .tc := ⟨.hbm, 145, rfl⟩
abbrev main_v108 : Ref sig .tc := ⟨.hbm, 146, rfl⟩
abbrev main_cst_27 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_28 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_29 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_30 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_31 : Ref sig .tc := ⟨.hbm, 176, rfl⟩
abbrev main_v134 : Ref sig .tc := ⟨.hbm, 177, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S64_S64x1_0 : S64.BroadcastsInDim S64x1 (![0] : Fin 1 → Fin S64x1.rank)
  bcast_S_S64x1 : S_.BroadcastsInDim S64x1 (![] : Fin 0 → Fin S64x1.rank)
  bcast_S1048576_S1x1048576_1 : S1048576.BroadcastsInDim S1x1048576 (![1] : Fin 1 → Fin S1x1048576.rank)
  bcast_S64x1_S64x1048576_0_1 : S64x1.BroadcastsInDim S64x1048576 (![0, 1] : Fin 2 → Fin S64x1048576.rank)
  bcast_S1x1048576_S64x1048576_0_1 : S1x1048576.BroadcastsInDim S64x1048576 (![0, 1] : Fin 2 → Fin S64x1048576.rank)
  bcast_S1_S1x1_1 : S1.BroadcastsInDim S1x1 (![1] : Fin 1 → Fin S1x1.rank)
  bcast_S1x1_S64x1048576_0_1 : S1x1.BroadcastsInDim S64x1048576 (![0, 1] : Fin 2 → Fin S64x1048576.rank)
  reducesTo_S64_S_d0 : S64.ReducesTo [0] S_
  h_S_ : 0 < S_.numel
  bcast_S1_S64_0 : S1.BroadcastsInDim S64 (![0] : Fin 1 → Fin S64.rank)
  bcast_S_S64 : S_.BroadcastsInDim S64 (![] : Fin 0 → Fin S64.rank)
  reducesTo_S1048576_S_d0 : S1048576.ReducesTo [0] S_
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S64_S1x64_1 : S64.BroadcastsInDim S1x64 (![1] : Fin 1 → Fin S1x64.rank)
  bcast_S1048576x1_S1048576x64_0_1 : S1048576x1.BroadcastsInDim S1048576x64 (![0, 1] : Fin 2 → Fin S1048576x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  transposes_S1048576x64_S64x1048576_1_0 : S1048576x64.Transposes [1, 0] S64x1048576
  reducesTo_S64x1048576_S1048576_d0 : S64x1048576.ReducesTo [0] S1048576

variable [Facts₀]

class Facts : Prop extends Facts₀ where

variable [Facts]
-- ==== Proof.KernelFrame.lean ====
/- The frame of `Kernel`'s @main: the program runs to its end, faults nowhere, and leaves its ten argument arrays
   as launched. @main is a stretch of host operations, one pipelined region over a grid of 64 points, and one more host
   operation. The region's body reads its three input blocks whole, reads the output block (a value it never uses) and
   overwrites the output block whole; so what it leaves there is a closed function of the three input blocks
   (`outBlock`), and the launch theorem of a region between host operations gives the run (`run_main`) and the
   frame (`frame`), at any float instance `F`. -/
import proofs.«100778_j54966991454377_2_alg».proof.Defs
import proofs.«100778_j54966991454377_2_alg».proof.Proof.Gen.Kernel.Launch
import proofs.«100778_j54966991454377_2_alg».proof.Proof.Gen.Kernel.Skeleton
import proofs.«100778_j54966991454377_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding that a rectangle of 16384 columns is the whole block recurses once per coordinate of the long axis
set_option maxRecDepth 65536

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents `m` rewritten by the host
    operations before the region, in order. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region leaves a buffer at contents it does not determine. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- @main is the host operations before the region, the region, and the host operation after it: run from the launch
    contents it reaches the region at contents `V`, and continues after it with the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only unscoped TensorCore buffers, each of which is an array of the
    pipeline or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region has `main_arg0` as its result, so the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg1` as its result, so the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg2` as its result, so the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg3` as its result, so the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg4` as its result, so the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg5` as its result, so the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg6` as its result, so the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg7` as its result, so the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg8` as its result, so the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg9` as its result, so the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it, and `main_arg0` is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor does the one after it, and `main_arg1` is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- Nor does the one after it, and `main_arg2` is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- Nor does the one after it, and `main_arg3` is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- Nor does the one after it, and `main_arg4` is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- Nor does the one after it, and `main_arg5` is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- Nor does the one after it, and `main_arg6` is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- Nor does the one after it, and `main_arg7` is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- Nor does the one after it, and `main_arg8` is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- Nor does the one after it, and `main_arg9` is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether or not the pipeline
    fetched it there (where it did not, the block index has not moved since the last fetch), for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether or not the pipeline
    fetched it there (where it did not, the block index has not moved since the last fetch), for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether or not the pipeline
    fetched it there (where it did not, the block index has not moved since the last fetch), for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- For any proof data whose arrays are the region-entry contents, a run ending with every buffer that bypasses the
    region as the last host operation leaves it has every argument array as launched: an argument is unscoped and is
    no window's array, and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

/-- The whole of a 1x16384 block, -/
abbrev rBlk : Rect S1x16384 := Rect.unit (s := S1x16384) ![0, 0] S1x16384.size inb_S1x16384_S1x16384_0_0
/-- of the 64x8 parameter slab, -/
abbrev rSlab : Rect S64x8 := Rect.unit (s := S64x8) ![0, 0] S64x8.size inb_S64x8_S64x8_0_0
/-- and of the pair of scalars. -/
abbrev rPair : Rect S1x2 := Rect.unit (s := S1x2) ![0, 0] S1x2.size inb_S1x2_S1x2_0_0

/-! ## What the body leaves in the output window's buffer -/

/-- The output window's staging buffer after the body, as a function of the three input blocks `x0` (the 1x16384
    block of the reshaped first argument), `x1` (the parameter slab) and `x2` (the two scalars): its one store, of the
    whole block, whose payload is the body's last value computed from the five values its first part returns. -/
def outBlock (x0 : Vec F S1x16384 .f32) (x1 : Vec F S64x8 .f32) (x2 : Vec F S1x2 .f32) : Vec F S1x16384 .f32 :=
  View.canon [⟨rBlk, k0_pay1 (k0_pay5 (View.ld x1 rSlab)) (k0_pay6 (View.ld x1 rSlab))
    (k0_pay8 (View.ld x0 rBlk) (View.ld x1 rSlab) (View.ld x2 rPair)) (k0_pay9 (View.ld x1 rSlab))
    (k0_pay10 (View.ld x0 rBlk) (View.ld x2 rPair))⟩]

/-- That one store is of the whole block, so it covers it. -/
theorem cover_out (p0 : Vec F S1x16384 .f32) (y : S1x16384.Idx) :
    ∃ pc ∈ ([⟨rBlk, p0⟩] : List (View.Piece (Elt F) S1x16384 .f32)), y ∈ pc.1.set :=
  View.cover_of_tiled [⟨rBlk, p0⟩] S1x16384.size (by rfl) y

/-! ## The body's triple -/

set_option maxHeartbeats 1000000 in
/-- The kernel body on whole staging memrefs, the three inputs' at read contents `x0`, `x1`, `x2` and the output's at
    any contents, runs to a continuation holding the inputs' as they were and the output's at `outBlock x0 x1 x2`: its
    read of the output buffer yields a value nothing uses, and its store overwrites the whole buffer. -/
theorem sound_kernel (c : Dev nD) (E : Set ℕ) (i : grid0.Coords)
    (arg1 : Memref sig .tc .vmem S1x16384 .f32) (harg1 : arg1.IsWhole) (arg2 : Memref sig .tc .vmem S64x8 .f32) (harg2 : arg2.IsWhole)
    (arg3 : Memref sig .tc .vmem S1x2 .f32) (harg3 : arg3.IsWhole) (arg4 : Memref sig .tc .vmem S1x16384 .f32) (harg4 : arg4.IsWhole)
    (x0 : Vec F S1x16384 .f32) (x1 : Vec F S64x8 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__fmnet_kernel i arg1 harg1 arg2 harg2 arg3 harg3 arg4 harg4) K := by
  simp only [cc0__fmnet_kernel_eq_skeleton]; unfold cc0__fmnet_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data of the pipeline on core `c`: the arrays as the region finds them; after the body at point `t` each
    input's buffer at its block and the output's at `outBlock` of the three input blocks; as invariant the core's
    scoped buffers that are no staging buffer and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents (by projection: the fold over the host operations is never
    unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`: the invariant, the core's owed signals, and each window's current
    staging buffer at what the pipeline put or left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, for any values: every weakly fair execution of @main on the TensorCores
    terminates without fault, and every final state has each array of the pipeline at what the write-backs of the proof
    data's blocks make of it and every other unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.HandFrame.run_main' depends on axioms: [propext, Classical.choice, Quot.sound] -/
#guard_msgs in #print axioms run_main

/-- The frame: the program runs to its end without fault and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.HandFrame

end
-- ==== Proof.KernelIdealFrame.lean ====
/- The frame of `KernelIdeal`'s @main: the program runs to its end, faults nowhere, and leaves its ten argument arrays
   as launched. @main is a stretch of host operations, one pipelined region over a grid of 64 points, and one more host
   operation. The region's body reads its three input blocks whole, reads the output block (a value it never uses) and
   overwrites the output block whole; so what it leaves there is a closed function of the three input blocks
   (`outBlock`), and the launch theorem of a region between host operations gives the run (`run_main`) and the
   frame (`frame`), at any float instance `F`. -/
import proofs.«100778_j54966991454377_2_alg».proof.Defs
import proofs.«100778_j54966991454377_2_alg».proof.Proof.Gen.KernelIdeal.Launch
import proofs.«100778_j54966991454377_2_alg».proof.Proof.Gen.KernelIdeal.Skeleton
import proofs.«100778_j54966991454377_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding that a rectangle of 16384 columns is the whole block recurses once per coordinate of the long axis
set_option maxRecDepth 65536

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents `m` rewritten by the host
    operations before the region, in order. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation before the region leaves a buffer at contents it does not determine. -/
theorem hostOps0_fresh : (hostOps0 : List (HloOp τ sig (Elt F))).Forall fun op => op.fresh = ∅ := by
  simp only [List.Forall]; repeat' constructor
/-- Nor does the one after it. -/
theorem hostOps1_fresh : (hostOps1 : List (HloOp τ sig (Elt F))).Forall fun op => op.fresh = ∅ := by
  simp only [List.Forall]; repeat' constructor

/-- @main is the host operations before the region, the region, and the host operation after it: run from the launch
    contents it reaches the region at contents `V`, and continues after it with the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches only unscoped TensorCore buffers, each of which is an array of the
    pipeline or a buffer that bypasses the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: its one result buffer is none of the four. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region has `main_arg0` as its result, so the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg1` as its result, so the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg2` as its result, so the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg3` as its result, so the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg4` as its result, so the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg5` as its result, so the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg6` as its result, so the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg7` as its result, so the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg8` as its result, so the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region has `main_arg9` as its result, so the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the one after it, and `main_arg0` is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor does the one after it, and `main_arg1` is no window's array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- Nor does the one after it, and `main_arg2` is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- Nor does the one after it, and `main_arg3` is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- Nor does the one after it, and `main_arg4` is no window's array: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- Nor does the one after it, and `main_arg5` is no window's array: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- Nor does the one after it, and `main_arg6` is no window's array: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- Nor does the one after it, and `main_arg7` is no window's array: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- Nor does the one after it, and `main_arg8` is no window's array: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- Nor does the one after it, and `main_arg9` is no window's array: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-! ## The windows' blocks -/

/-- Window `w`'s block at point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether or not the pipeline
    fetched it there (where it did not, the block index has not moved since the last fetch), for any proof data
    whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block at every point, whether or not the pipeline
    fetched it there (where it did not, the block index has not moved since the last fetch), for any proof data
    whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block at every point, whether or not the pipeline
    fetched it there (where it did not, the block index has not moved since the last fetch), for any proof data
    whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- For any proof data whose arrays are the region-entry contents, a run ending with every buffer that bypasses the
    region as the last host operation leaves it has every argument array as launched: an argument is unscoped and is
    no window's array, and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body's accesses -/

/-- The whole of a 1x16384 block, -/
abbrev rBlk : Rect S1x16384 := Rect.unit (s := S1x16384) ![0, 0] S1x16384.size inb_S1x16384_S1x16384_0_0
/-- of the 64x8 parameter slab, -/
abbrev rSlab : Rect S64x8 := Rect.unit (s := S64x8) ![0, 0] S64x8.size inb_S64x8_S64x8_0_0
/-- and of the pair of scalars. -/
abbrev rPair : Rect S1x2 := Rect.unit (s := S1x2) ![0, 0] S1x2.size inb_S1x2_S1x2_0_0

/-! ## What the body leaves in the output window's buffer -/

/-- The output window's staging buffer after the body, as a function of the three input blocks `x0` (the 1x16384
    block of the reshaped first argument), `x1` (the parameter slab) and `x2` (the two scalars): its one store, of the
    whole block, whose payload is the body's last value computed from the five values its first part returns. -/
def outBlock (x0 : Vec F S1x16384 .f32) (x1 : Vec F S64x8 .f32) (x2 : Vec F S1x2 .f32) : Vec F S1x16384 .f32 :=
  View.canon [⟨rBlk, k0_pay1 (k0_pay5 (View.ld x1 rSlab)) (k0_pay6 (View.ld x1 rSlab))
    (k0_pay8 (View.ld x0 rBlk) (View.ld x1 rSlab) (View.ld x2 rPair)) (k0_pay9 (View.ld x1 rSlab))
    (k0_pay10 (View.ld x0 rBlk) (View.ld x2 rPair))⟩]

/-- That one store is of the whole block, so it covers it. -/
theorem cover_out (p0 : Vec F S1x16384 .f32) (y : S1x16384.Idx) :
    ∃ pc ∈ ([⟨rBlk, p0⟩] : List (View.Piece (Elt F) S1x16384 .f32)), y ∈ pc.1.set :=
  View.cover_of_tiled [⟨rBlk, p0⟩] S1x16384.size (by rfl) y

/-! ## The body's triple -/

set_option maxHeartbeats 1000000 in
/-- The kernel body on whole staging memrefs, the three inputs' at read contents `x0`, `x1`, `x2` and the output's at
    any contents, runs to a continuation holding the inputs' as they were and the output's at `outBlock x0 x1 x2`: its
    read of the output buffer yields a value nothing uses, and its store overwrites the whole buffer. -/
theorem sound_kernel (c : Dev nD) (E : Set ℕ) (i : grid0.Coords)
    (arg1 : Memref sig .tc .vmem S1x16384 .f32) (harg1 : arg1.IsWhole) (arg2 : Memref sig .tc .vmem S64x8 .f32) (harg2 : arg2.IsWhole)
    (arg3 : Memref sig .tc .vmem S1x2 .f32) (harg3 : arg3.IsWhole) (arg4 : Memref sig .tc .vmem S1x16384 .f32) (harg4 : arg4.IsWhole)
    (x0 : Vec F S1x16384 .f32) (x1 : Vec F S64x8 .f32) (x2 : Vec F S1x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__fmnet_kernel i arg1 harg1 arg2 harg2 arg3 harg3 arg4 harg4) K := by
  simp only [cc0__fmnet_kernel_eq_skeleton]; unfold cc0__fmnet_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data of the pipeline on core `c`: the arrays as the region finds them; after the body at point `t` each
    input's buffer at its block and the output's at `outBlock` of the three input blocks; as invariant the core's
    scoped buffers that are no staging buffer and its generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

/-- The proof data's arrays are the region-entry contents (by projection: the fold over the host operations is never
    unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

/-- What the body is called with at point `t`: the invariant, the core's owed signals, and each window's current
    staging buffer at what the pipeline put or left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters, for any values: every weakly fair execution of @main on the TensorCores
    terminates without fault, and every final state has each array of the pipeline at what the write-backs of the proof
    data's blocks make of it and every other unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.HandFrame.run_main' depends on axioms: [propext, Classical.choice, Quot.sound] -/
#guard_msgs in #print axioms run_main

/-- The frame: the program runs to its end without fault and its ten argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.HandFrame

end
-- ==== Proof.Algebra.lean ====
/-
  The three laws of the extended reals that join the kernel's arithmetic to the reference's.

  * The normalised time: the kernel multiplies a sample by the reciprocal `1 / M` of the largest sample, the
    reference divides the sample by `M`. On the extended reals the quotient by a NONZERO `M` is the product with
    `M⁻¹`, and `1 / M` is `M⁻¹`, so the two agree whenever `M ≠ 0` (at `M = 0` they do not: `0 · (1/0) = 0`
    while `0 / 0` is the bottom element).
  * The envelope: the kernel takes the reciprocal square root of `1 + a²`, the reference divides one by the square
    root of `1 + a²`. The two agree at every NONNEGATIVE extended real (at `0` both are `⊤`, at `⊤` both are `0`),
    and `1 + a · a` is nonnegative for every extended real `a` (a product of an element with itself is never negative:
    `⊥ · ⊥ = ⊤`).
-/
import Idealize.ShloMosaic.PureOps.Ideal

noncomputable section

namespace Cert.FmBank.Algebra

open Idealize.ShloMosaic

/-- The product with the reciprocal of a nonzero extended real is the quotient by it. -/
theorem mul_recip_eq_div (t M : EReal) (hM : M ≠ 0) : t * Ideal.div 1 M = Ideal.div t M := by
  unfold Ideal.div
  rw [if_neg hM, if_neg hM, one_mul]

/-- An extended real times itself is nonnegative. -/
theorem mul_self_nonneg (a : EReal) : 0 ≤ a * a := by
  induction a using EReal.rec with
  | bot => simp
  | top => simp
  | coe r => rw [← EReal.coe_mul]; exact_mod_cast _root_.mul_self_nonneg r

/-- One plus a square is nonnegative. -/
theorem one_add_sq_nonneg (a : EReal) : 0 ≤ 1 + a * a :=
  add_nonneg zero_le_one (mul_self_nonneg a)

/-- At a nonnegative extended real the reciprocal square root is one divided by the square root. -/
theorem rsqrt_eq_one_div_sqrt (x : EReal) (hx : 0 ≤ x) : Ideal.rsqrt x = Ideal.div 1 (Ideal.sqrt x) := by
  induction x using EReal.rec with
  | bot => exact absurd hx (by simp)
  | top =>
    rw [Ideal.rsqrt_top, Ideal.sqrt_top]
    unfold Ideal.div
    rw [if_neg EReal.top_ne_zero, one_mul, EReal.inv_top]
  | coe r =>
    have hr : 0 ≤ r := by exact_mod_cast hx
    have hnlt : ¬ r < 0 := not_lt.mpr hr
    rw [Ideal.rsqrt_coe, Ideal.sqrt_coe, if_neg hnlt, if_neg hnlt]
    unfold Ideal.div
    by_cases h0 : r = 0
    · subst h0
      rw [if_pos rfl, Real.sqrt_zero, EReal.coe_zero, if_pos rfl, if_pos zero_lt_one]
    · have hpos : 0 < Real.sqrt r := Real.sqrt_pos.mpr (lt_of_le_of_ne hr (Ne.symm h0))
      have hne : ((Real.sqrt r : ℝ) : EReal) ≠ 0 := by exact_mod_cast hpos.ne'
      rw [if_neg h0, if_neg hne, one_mul, EReal.coe_inv]

/-- The envelope's two spellings agree at `1 + a · a`, for every extended real `a`. -/
theorem rsqrt_one_add_sq (a : EReal) : Ideal.rsqrt (1 + a * a) = Ideal.div 1 (Ideal.sqrt (1 + a * a)) :=
  rsqrt_eq_one_div_sqrt _ (one_add_sq_nonneg a)

/-! ## The constants both programs spell -/

/-- The single-precision word of `1.0`. -/
abbrev oneW : EReal := Ideal.ofBits .f32 0x3F800000#32
/-- The single-precision word of `0.5`. -/
abbrev halfW : EReal := Ideal.ofBits .f32 0x3F000000#32
/-- The single-precision word of `+0.0`. -/
abbrev zeroW : EReal := Ideal.ofBits .f32 0x00000000#32

/-- The word of `1.0` denotes the extended real one. -/
theorem oneW_eq : oneW = 1 := by
  simp [oneW, Ideal.ofBits, Ideal.ieee, -EReal.coe_mul]; norm_num

/-- The word of `+0.0` denotes zero. -/
theorem zeroW_eq : zeroW = 0 := by
  simp [zeroW, Ideal.ofBits, Ideal.ieee]

/-! ## One output sample, in the kernel's arithmetic and in the reference's

  A bank of 64 oscillators with angular frequencies `w`, mixing weights `a`, envelope slopes `s` and envelope
  offsets `so` (already multiplied by the slope) contributes, at a sample time `t` whose normalised value is `tn`,
  the sum over the oscillators of a wave times a bell-shaped envelope `(1 + (s·tn + so)²)^(-1/2)` times the weight.
  The modulator bank's waves are cosines of `w·t + po`; the carrier bank's are sines of `w·t + mod + po`, where `mod`
  is the modulator bank's sum at the same sample. -/

/-- Normalised time as the kernel computes it: the sample times a reciprocal `inv`, less a half. -/
def tnK (t inv : EReal) : EReal := t * inv - halfW
/-- Normalised time as the reference computes it: the sample divided by the largest sample `M`, less a half. -/
def tnR (t M : EReal) : EReal := Ideal.div t M - halfW

/-- The envelope as the kernel computes it: a reciprocal square root. -/
def envK (s so tn : EReal) : EReal := Ideal.rsqrt (oneW + (s * tn + so) * (s * tn + so))
/-- The envelope as the reference computes it: one over a square root, the slope on the right of the product. -/
def envR (s so tn : EReal) : EReal := Ideal.div oneW (Ideal.sqrt (oneW + (tn * s + so) * (tn * s + so)))

/-- The modulator bank's sum, kernel form: a plain sum over the oscillators. -/
def modK (w a s so : Fin 64 → EReal) (po t tn : EReal) : EReal :=
  ∑ k : Fin 64, Ideal.cos (w k * t + po) * (envK (s k) (so k) tn * a k)
/-- The modulator bank's sum, reference form: the sum started from the zero word. -/
def modR (w a s so : Fin 64 → EReal) (po t tn : EReal) : EReal :=
  zeroW + ∑ k : Fin 64, Ideal.cos (w k * t + po) * (envR (s k) (so k) tn * a k)

/-- The carrier bank's sum, kernel form. -/
def carK (w a s so : Fin 64 → EReal) (po t tn md : EReal) : EReal :=
  ∑ k : Fin 64, Ideal.sin (w k * t + md + po) * (envK (s k) (so k) tn * a k)
/-- The carrier bank's sum, reference form. -/
def carR (w a s so : Fin 64 → EReal) (po t tn md : EReal) : EReal :=
  zeroW + ∑ k : Fin 64, Ideal.sin (w k * t + md + po) * (envR (s k) (so k) tn * a k)

/-- The two envelopes are one function: commute the slope's product, then the reciprocal-square-root law at the
    nonnegative `1 + a²`. -/
theorem envK_eq_envR (s so tn : EReal) : envK s so tn = envR s so tn := by
  unfold envK envR
  rw [mul_comm tn s, oneW_eq]
  exact rsqrt_one_add_sq (s * tn + so)

/-- The two normalised times agree when the largest sample is not zero. -/
theorem tnK_eq_tnR (t M : EReal) (hM : M ≠ 0) : tnK t (Ideal.div oneW M) = tnR t M := by
  unfold tnK tnR
  rw [oneW_eq, mul_recip_eq_div t M hM]

theorem modK_eq_modR (w a s so : Fin 64 → EReal) (po t tn : EReal) : modK w a s so po t tn = modR w a s so po t tn := by
  unfold modK modR
  rw [zeroW_eq, zero_add]
  exact Finset.sum_congr rfl fun k _ => by rw [envK_eq_envR]

theorem carK_eq_carR (w a s so : Fin 64 → EReal) (po t tn md : EReal) : carK w a s so po t tn md = carR w a s so po t tn md := by
  unfold carK carR
  rw [zeroW_eq, zero_add]
  exact Finset.sum_congr rfl fun k _ => by rw [envK_eq_envR]

/-- ONE OUTPUT SAMPLE: the kernel's arithmetic and the reference's give the same extended real whenever the largest
    sample time `M` is not zero. -/
theorem sample_eq (wm am sm som wc ac sc soc : Fin 64 → EReal) (po t M : EReal) (hM : M ≠ 0) :
    carK wc ac sc soc po t (tnK t (Ideal.div oneW M)) (modK wm am sm som po t (tnK t (Ideal.div oneW M)))
      = carR wc ac sc soc po t (tnR t M) (modR wm am sm som po t (tnR t M)) := by
  rw [tnK_eq_tnR t M hM, modK_eq_modR, carK_eq_carR]

end Cert.FmBank.Algebra

end
-- ==== Proof.Payload.lean ====
/-
  What the kernel's body stores, read at one element.

  The body loads a row `x0` of 16384 sample times, the 64 × 8 slab `x1` of per-oscillator parameters (columns: modulator
  angular frequency, modulator weight, modulator envelope slope, modulator slope·offset, then the same four for the
  carrier) and the pair `x2` = (phase offset, reciprocal of the largest sample time). Every intermediate is a 64 × 16384
  array whose entry (k, y) depends on column entries `x1 (k, ·)`, on `x0 (0, y)` and on `x2` only; the two sums over the
  64 oscillators run down the first axis. So the stored row at `(0, y)` is the carrier bank's sum at sample `x0 (0, y)`
  around the modulator bank's sum at the same sample, in the kernel's arithmetic (`Algebra.carK`, `Algebra.modK`).
-/
import proofs.«100778_j54966991454377_2_alg».proof.Proof.Gen.KernelIdeal.Skeleton
import proofs.«100778_j54966991454377_2_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.FmBank.Payload

open Idealize.ShloMosaic Idealize.ShloMosaic.ValueIdx Cert.KernelIdeal Cert.KernelIdeal.Gen Cert.FmBank.Algebra

/-! ## Layout operations of the body, read at an index -/

/-- Column `c` of the parameter slab, as a 64 × 1 array, at row `k`. -/
theorem slab_col (x1 : S64x8.Idx → EReal) (c : Fin 8) (h : S64x8.Slices ![0, c.val] S64x1) (k : Fin 64) :
    extractStridedSlice S64x1 ![0, c.val] x1 h (ix2 k (0 : Fin 1)) = x1 (ix2 k c) :=
  extractStridedSlice_apply _ x1 h _ (ix2 k c) (fun a => by
    match a with
    | ⟨0, _⟩ => simp
    | ⟨1, _⟩ => simp)

/-- Entry `c` of the scalar pair, as a 1 × 1 array. -/
theorem pair_entry (x2 : S1x2.Idx → EReal) (c : Fin 2) (h : S1x2.Slices ![0, c.val] S1x1) :
    extractStridedSlice S1x1 ![0, c.val] x2 h (ix2 (0 : Fin 1) (0 : Fin 1)) = x2 (ix2 (0 : Fin 1) c) :=
  extractStridedSlice_apply _ x2 h _ (ix2 (0 : Fin 1) c) (fun a => by
    match a with
    | ⟨0, _⟩ => simp
    | ⟨1, _⟩ => simp)

/-- A 64 × 1 column broadcast along the samples: entry (k, y) is the column's entry k. -/
theorem col_bcast (v : S64x1.Idx → EReal) (h : S64x1.Broadcasts S64x16384) (k : Fin 64) (y : Fin 16384) :
    broadcastTo S64x16384 v h (ix2 k y) = v (ix2 k (0 : Fin 1)) :=
  broadcastTo_apply v h _ (ix2 k (0 : Fin 1)) (fun a => by
    match a with
    | ⟨0, _⟩ => simp
    | ⟨1, _⟩ => simp)

/-- A 1 × 16384 row broadcast along the oscillators: entry (k, y) is the row's entry y. -/
theorem row_bcast (v : S1x16384.Idx → EReal) (h : S1x16384.Broadcasts S64x16384) (k : Fin 64) (y : Fin 16384) :
    broadcastTo S64x16384 v h (ix2 k y) = v (ix2 (0 : Fin 1) y) :=
  broadcastTo_apply v h _ (ix2 (0 : Fin 1) y) (fun a => by
    match a with
    | ⟨0, _⟩ => simp
    | ⟨1, _⟩ => simp)

/-- A 1 × 1 array broadcast to 64 × 16384: every entry is its one entry. -/
theorem one_bcast (v : S1x1.Idx → EReal) (h : S1x1.Broadcasts S64x16384) (k : Fin 64) (y : Fin 16384) :
    broadcastTo S64x16384 v h (ix2 k y) = v (ix2 (0 : Fin 1) (0 : Fin 1)) :=
  broadcastTo_apply v h _ (ix2 (0 : Fin 1) (0 : Fin 1)) (fun a => by
    match a with
    | ⟨0, _⟩ => simp
    | ⟨1, _⟩ => simp)

/-- A 1 × 1 array broadcast to a 1 × 16384 row. -/
theorem one_bcast_row (v : S1x1.Idx → EReal) (h : S1x1.Broadcasts S1x16384) (y : Fin 16384) :
    broadcastTo S1x16384 v h (ix2 (0 : Fin 1) y) = v (ix2 (0 : Fin 1) (0 : Fin 1)) :=
  broadcastTo_apply v h _ (ix2 (0 : Fin 1) (0 : Fin 1)) (fun a => by
    match a with
    | ⟨0, _⟩ => simp
    | ⟨1, _⟩ => simp)

/-- The sum down the oscillator axis of a 64 × 16384 array, at sample y (the accumulator is the zero word, the neutral
    element of the sum, so nothing is added to the sum). -/
theorem osc_sum (v : FVec Ideal S64x16384 .f32) (h : S64x16384.Reduces [0] S16384) (y : Fin 16384) :
    multiReduction .add [0] S16384 v 0x00000000#32 h (.inl rfl) rfl (ix1 y) = ∑ k : Fin 64, v (ix2 k y) :=
  (Ideal.multiReduction_add_single v 0x00000000#32 h (.inl rfl) rfl (ix1 y)).trans
    (Finset.sum_congr rfl fun k _ => congrArg v (funext fun a => by
      match a with
      | ⟨0, _⟩ => rfl
      | ⟨1, _⟩ => rfl))

/-- A 16384-vector recast as a 1 × 16384 row. -/
theorem row_of_vec (v : S16384.Idx → EReal) (h : S16384.ShapeCasts S1x16384) (y : Fin 16384) :
    shapeCast S1x16384 v h (ix2 (0 : Fin 1) y) = v (ix1 y) :=
  shapeCast_apply v h _ (ix1 y) (by
    rw [Shape.rowMajor_val_one, Shape.rowMajor_val_two]; simp)

/-- A recast to the same shape changes nothing. -/
theorem cast_same {s : Shape} (v : s.Idx → EReal) (h : s.ShapeCasts s) (j : s.Idx) : shapeCast s v h j = v j :=
  shapeCast_apply v h j j rfl

/-! ## Pointwise operations at an index -/

theorem rsqrt_at {s : Shape} (v : FVec Ideal s .f32) (j : s.Idx) : rsqrt v j = Ideal.rsqrt (v j) := rfl
theorem cos_at {s : Shape} (v : FVec Ideal s .f32) (j : s.Idx) : cos v j = Ideal.cos (v j) := rfl
theorem sin_at {s : Shape} (v : FVec Ideal s .f32) (j : s.Idx) : sin v j = Ideal.sin (v j) := rfl

/-! ## The slab's columns and the pair's entries, at literal offsets -/

theorem col0 (x1 : S64x8.Idx → EReal) (h : S64x8.Slices ![0, 0] S64x1) (k : Fin 64) :
    extractStridedSlice S64x1 ![0, 0] x1 h (ix2 k (0 : Fin 1)) = x1 (ix2 k (0 : Fin 8)) := slab_col x1 (0 : Fin 8) h k
theorem col1 (x1 : S64x8.Idx → EReal) (h : S64x8.Slices ![0, 1] S64x1) (k : Fin 64) :
    extractStridedSlice S64x1 ![0, 1] x1 h (ix2 k (0 : Fin 1)) = x1 (ix2 k (1 : Fin 8)) := slab_col x1 (1 : Fin 8) h k
theorem col2 (x1 : S64x8.Idx → EReal) (h : S64x8.Slices ![0, 2] S64x1) (k : Fin 64) :
    extractStridedSlice S64x1 ![0, 2] x1 h (ix2 k (0 : Fin 1)) = x1 (ix2 k (2 : Fin 8)) := slab_col x1 (2 : Fin 8) h k
theorem col3 (x1 : S64x8.Idx → EReal) (h : S64x8.Slices ![0, 3] S64x1) (k : Fin 64) :
    extractStridedSlice S64x1 ![0, 3] x1 h (ix2 k (0 : Fin 1)) = x1 (ix2 k (3 : Fin 8)) := slab_col x1 (3 : Fin 8) h k
theorem col4 (x1 : S64x8.Idx → EReal) (h : S64x8.Slices ![0, 4] S64x1) (k : Fin 64) :
    extractStridedSlice S64x1 ![0, 4] x1 h (ix2 k (0 : Fin 1)) = x1 (ix2 k (4 : Fin 8)) := slab_col x1 (4 : Fin 8) h k
theorem col5 (x1 : S64x8.Idx → EReal) (h : S64x8.Slices ![0, 5] S64x1) (k : Fin 64) :
    extractStridedSlice S64x1 ![0, 5] x1 h (ix2 k (0 : Fin 1)) = x1 (ix2 k (5 : Fin 8)) := slab_col x1 (5 : Fin 8) h k
theorem col6 (x1 : S64x8.Idx → EReal) (h : S64x8.Slices ![0, 6] S64x1) (k : Fin 64) :
    extractStridedSlice S64x1 ![0, 6] x1 h (ix2 k (0 : Fin 1)) = x1 (ix2 k (6 : Fin 8)) := slab_col x1 (6 : Fin 8) h k
theorem col7 (x1 : S64x8.Idx → EReal) (h : S64x8.Slices ![0, 7] S64x1) (k : Fin 64) :
    extractStridedSlice S64x1 ![0, 7] x1 h (ix2 k (0 : Fin 1)) = x1 (ix2 k (7 : Fin 8)) := slab_col x1 (7 : Fin 8) h k
theorem pair0 (x2 : S1x2.Idx → EReal) (h : S1x2.Slices ![0, 0] S1x1) :
    extractStridedSlice S1x1 ![0, 0] x2 h (ix2 (0 : Fin 1) (0 : Fin 1)) = x2 (ix2 (0 : Fin 1) (0 : Fin 2)) := pair_entry x2 (0 : Fin 2) h
theorem pair1 (x2 : S1x2.Idx → EReal) (h : S1x2.Slices ![0, 1] S1x1) :
    extractStridedSlice S1x1 ![0, 1] x2 h (ix2 (0 : Fin 1) (0 : Fin 1)) = x2 (ix2 (0 : Fin 1) (1 : Fin 2)) := pair_entry x2 (1 : Fin 2) h

/-! ## The body's named values at an index -/

section
variable (x0 : Vec Ideal S1x16384 .f32) (x1 : Vec Ideal S64x8 .f32) (x2 : Vec Ideal S1x2 .f32)

/-- The loaded row, slab and pair pass through recasts to their own shapes. -/
theorem row_at (j : S1x16384.Idx) : k0_pay2 (F := Ideal) x0 j = x0 j := by unfold k0_pay2; exact cast_same _ _ j
theorem slab_at (j : S64x8.Idx) : k0_pay3 (F := Ideal) x1 j = x1 j := by unfold k0_pay3; exact cast_same _ _ j
theorem pair_at (j : S1x2.Idx) : k0_pay4 (F := Ideal) x2 j = x2 j := by unfold k0_pay4; exact cast_same _ _ j

/-- The carrier's weight column. -/
theorem car_weight_at (k : Fin 64) : k0_pay5 (F := Ideal) x1 (ix2 k (0 : Fin 1)) = x1 (ix2 k (5 : Fin 8)) := by
  unfold k0_pay5; exact (col5 _ _ k).trans (slab_at x1 _)
/-- The carrier's slope·offset column. -/
theorem car_soff_at (k : Fin 64) : k0_pay6 (F := Ideal) x1 (ix2 k (0 : Fin 1)) = x1 (ix2 k (7 : Fin 8)) := by
  unfold k0_pay6; exact (col7 _ _ k).trans (slab_at x1 _)

/-- Normalised time of sample y. -/
theorem tn_at (y : Fin 16384) :
    k0_pay7 (F := Ideal) x0 x2 (ix2 (0 : Fin 1) y) = tnK (x0 (ix2 (0 : Fin 1) y)) (x2 (ix2 (0 : Fin 1) (1 : Fin 2))) := by
  unfold k0_pay7 tnK
  simp only [subf_apply, mulf_apply, broadcast_apply, one_bcast_row, pair1, row_at, pair_at]
  rfl

/-- The carrier's slope column, broadcast along the samples. -/
theorem car_slope_at (k : Fin 64) (y : Fin 16384) : k0_pay9 (F := Ideal) x1 (ix2 k y) = x1 (ix2 k (6 : Fin 8)) := by
  unfold k0_pay9
  simp only [col_bcast, col6, slab_at]

/-- Normalised time, broadcast along the oscillators. -/
theorem tn_bcast_at (k : Fin 64) (y : Fin 16384) :
    k0_pay10 (F := Ideal) x0 x2 (ix2 k y) = tnK (x0 (ix2 (0 : Fin 1) y)) (x2 (ix2 (0 : Fin 1) (1 : Fin 2))) := by
  unfold k0_pay10
  simp only [row_bcast, tn_at]

/-- The carrier's wave at oscillator k and sample y: the sine of its phase, the phase holding the modulator bank's sum. -/
theorem car_wave_at (k : Fin 64) (y : Fin 16384) :
    k0_pay8 (F := Ideal) x0 x1 x2 (ix2 k y)
      = Ideal.sin (x1 (ix2 k (4 : Fin 8)) * x0 (ix2 (0 : Fin 1) y)
          + modK (fun k => x1 (ix2 k (0 : Fin 8))) (fun k => x1 (ix2 k (1 : Fin 8))) (fun k => x1 (ix2 k (2 : Fin 8))) (fun k => x1 (ix2 k (3 : Fin 8)))
              (x2 (ix2 (0 : Fin 1) (0 : Fin 2))) (x0 (ix2 (0 : Fin 1) y)) (tnK (x0 (ix2 (0 : Fin 1) y)) (x2 (ix2 (0 : Fin 1) (1 : Fin 2))))
          + x2 (ix2 (0 : Fin 1) (0 : Fin 2))) := by
  unfold k0_pay8
  simp only [sin_at, addf_apply, mulf_apply, col_bcast, row_bcast, one_bcast, col4, pair0, slab_at, row_at, pair_at]
  refine congrArg (fun b : EReal => Ideal.sin (x1 (ix2 k (4 : Fin 8)) * x0 (ix2 (0 : Fin 1) y) + b + x2 (ix2 (0 : Fin 1) (0 : Fin 2)))) ?_
  refine (row_of_vec _ _ y).trans ((osc_sum _ _ y).trans ?_)
  unfold modK envK
  refine Finset.sum_congr rfl fun k' _ => ?_
  simp only [cos_at, rsqrt_at, addf_apply, mulf_apply, broadcast_apply, col_bcast, row_bcast, one_bcast, col0, col1, col2, col3, pair0,
    slab_at, row_at, pair_at, tn_at]
  rfl

end

/-! ## The stored row -/

theorem stored_at (x0 : Vec Ideal S1x16384 .f32) (x1 : Vec Ideal S64x8 .f32) (x2 : Vec Ideal S1x2 .f32) (y : Fin 16384) :
    k0_pay1 (F := Ideal) (k0_pay5 x1) (k0_pay6 x1) (k0_pay8 x0 x1 x2) (k0_pay9 x1) (k0_pay10 x0 x2) (ix2 (0 : Fin 1) y)
      = carK (fun k => x1 (ix2 k (4 : Fin 8))) (fun k => x1 (ix2 k (5 : Fin 8))) (fun k => x1 (ix2 k (6 : Fin 8))) (fun k => x1 (ix2 k (7 : Fin 8)))
          (x2 (ix2 (0 : Fin 1) (0 : Fin 2))) (x0 (ix2 (0 : Fin 1) y)) (tnK (x0 (ix2 (0 : Fin 1) y)) (x2 (ix2 (0 : Fin 1) (1 : Fin 2))))
          (modK (fun k => x1 (ix2 k (0 : Fin 8))) (fun k => x1 (ix2 k (1 : Fin 8))) (fun k => x1 (ix2 k (2 : Fin 8))) (fun k => x1 (ix2 k (3 : Fin 8)))
            (x2 (ix2 (0 : Fin 1) (0 : Fin 2))) (x0 (ix2 (0 : Fin 1) y)) (tnK (x0 (ix2 (0 : Fin 1) y)) (x2 (ix2 (0 : Fin 1) (1 : Fin 2))))) := by
  unfold k0_pay1
  dsimp only
  refine (row_of_vec _ _ y).trans ((osc_sum _ _ y).trans ?_)
  unfold carK envK
  refine Finset.sum_congr rfl fun k _ => ?_
  simp only [rsqrt_at, addf_apply, mulf_apply, broadcast_apply, col_bcast, car_weight_at, car_soff_at, car_slope_at, tn_bcast_at, car_wave_at]
  rfl

end Cert.FmBank.Payload

end
-- ==== Proof.KernelValue.lean ====
/- What the kernel's program computes, at the ideal instance: its result array as ONE function of the three arrays
   the pipelined region reads. Every output sample is the carrier bank's sum at the sample time standing at the same
   position, with the modulator bank's sum at that sample inside it; the 64 oscillators' parameters are the eight columns
   of the slab and the two scalars are the phase offset and the reciprocal of the largest sample time. Each grid point
   writes back block `t` (columns `16384·t … 16384·t + 16383`) of that one function, the 64 blocks cover the row, and
   the last host operation flattens the row. -/
import proofs.«100778_j54966991454377_2_alg».proof.Proof.KernelIdealFrame
import proofs.«100778_j54966991454377_2_alg».proof.Proof.Payload
import Idealize.ShloMosaic.Lib.ValueIdx
import Idealize.ShloMosaic.Lib.ValueLayout
import Idealize.ShloMosaic.Lib.Pipeline.Value
import Idealize.ShloMosaic.Lib.Tactic

noncomputable section

namespace Cert.KernelIdeal.HandValue

open Cert.KernelIdeal Cert.KernelIdeal.Gen Cert.KernelIdeal.HandFrame
open Idealize.ShloMosaic Idealize.ShloMosaic.TcCoe Idealize.SL.Sem Idealize.ShloMosaic.ValueIdx
open Idealize.ShloMosaic.Pipeline (Dat)
open Cert.FmBank.Algebra

variable (m : (ℓ : Loc nD τ sig) → Buf (Elt Ideal) ℓ) (ρ : Dev nD → PrngReg)

/-- The offsets of a whole-block rectangle are all zero. -/
theorem hz : (![0, 0] : Fin 2 → Nat) = fun _ => 0 := funext fun a => by fin_cases a <;> rfl

/-! ## One output sample, and the whole row -/

/-- ONE OUTPUT SAMPLE as a function of the parameter slab `P` (column 0 … 3: the modulator bank's frequencies, weights,
    envelope slopes and offsets; column 4 … 7: the carrier bank's), the two scalars `Sc` (the phase offset, the
    reciprocal of the largest sample time) and the sample time `x`: the carrier bank's sum at `x`, its normalised time
    and the modulator bank's sum at the same `x`. -/
def sampleAt (P : S64x8.Idx → EReal) (Sc : S1x2.Idx → EReal) (x : EReal) : EReal :=
  carK (fun k => P (ix2 k (4 : Fin 8))) (fun k => P (ix2 k (5 : Fin 8))) (fun k => P (ix2 k (6 : Fin 8))) (fun k => P (ix2 k (7 : Fin 8)))
    (Sc (ix2 (0 : Fin 1) (0 : Fin 2))) x (tnK x (Sc (ix2 (0 : Fin 1) (1 : Fin 2))))
    (modK (fun k => P (ix2 k (0 : Fin 8))) (fun k => P (ix2 k (1 : Fin 8))) (fun k => P (ix2 k (2 : Fin 8))) (fun k => P (ix2 k (3 : Fin 8)))
      (Sc (ix2 (0 : Fin 1) (0 : Fin 2))) x (tnK x (Sc (ix2 (0 : Fin 1) (1 : Fin 2)))))

/-- THE WHOLE ROW: every output sample is `sampleAt` of the sample time at the SAME position of the row of sample
    times `X`, the whole slab and the whole pair. -/
def sampleRow (X : S1x1048576.Idx → EReal) (P : S64x8.Idx → EReal) (Sc : S1x2.Idx → EReal) : S1x1048576.Idx → EReal :=
  fun j => sampleAt P Sc (X j)

/-- The row at an index, spelt out. -/
theorem sampleRow_apply (X : S1x1048576.Idx → EReal) (P : S64x8.Idx → EReal) (Sc : S1x2.Idx → EReal) (j : S1x1048576.Idx) :
    sampleRow X P Sc j
      = carK (fun k => P (ix2 k (4 : Fin 8))) (fun k => P (ix2 k (5 : Fin 8))) (fun k => P (ix2 k (6 : Fin 8))) (fun k => P (ix2 k (7 : Fin 8)))
          (Sc (ix2 (0 : Fin 1) (0 : Fin 2))) (X j) (tnK (X j) (Sc (ix2 (0 : Fin 1) (1 : Fin 2))))
          (modK (fun k => P (ix2 k (0 : Fin 8))) (fun k => P (ix2 k (1 : Fin 8))) (fun k => P (ix2 k (2 : Fin 8))) (fun k => P (ix2 k (3 : Fin 8)))
            (Sc (ix2 (0 : Fin 1) (0 : Fin 2))) (X j) (tnK (X j) (Sc (ix2 (0 : Fin 1) (1 : Fin 2))))) := rfl

/-- The sample depends on nothing but its three arguments. -/
theorem sampleAt_congr {P P' : S64x8.Idx → EReal} {Sc Sc' : S1x2.Idx → EReal} {x x' : EReal} (hP : P = P') (hSc : Sc = Sc') (hx : x = x') :
    sampleAt P Sc x = sampleAt P' Sc' x' := by subst hP hSc hx; rfl

/-! ## What the body stores, at an index of the block -/

/-- The body's stored value at any index of the 1x16384 block is the sample of the block's entry at that index: an
    index of a one-row block is its column. -/
theorem stored_block (x0 : Vec Ideal S1x16384 .f32) (x1 : Vec Ideal S64x8 .f32) (x2 : Vec Ideal S1x2 .f32) (j : S1x16384.Idx) :
    k0_pay1 (F := Ideal) (k0_pay5 x1) (k0_pay6 x1) (k0_pay8 x0 x1 x2) (k0_pay9 x1) (k0_pay10 x0 x2) j = sampleAt x1 x2 (x0 j) := by
  have hj : j = ix2 (0 : Fin 1) (j 1) := by
    funext a
    match a with
    | ⟨0, _⟩ => exact Fin.ext (by have := idx2_lt0 j; show (j 0).val = 0; omega)
    | ⟨1, _⟩ => rfl
  rw [hj]
  exact Cert.FmBank.Payload.stored_at x0 x1 x2 (j 1)

/-! ## The index maps, decided over the grid -/

/-- At point `t` the sample-time window and the output window are both at block `(0, t)`; the slab's and the pair's
    windows are at block `(0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## Blocks of arbitrary arrays -/

/-- For ANY row `X`, slab `P` and pair `Sc`: the sample computed from point `t`'s three input blocks, index by index of
    the block, is block `t` of the whole row — the sample-time block at `t` sits where the output block does, and the
    slab's and the pair's blocks are the whole arrays. -/
theorem blocks_of_row (X : S1x1048576.Idx → EReal) (P : S64x8.Idx → EReal) (Sc : S1x2.Idx → EReal) (t : Fin cfg0.N) :
    (fun j : S1x16384.Idx => sampleAt (((cfg0.win 1).blk t).view.read (Elt Ideal) P) (((cfg0.win 2).blk t).view.read (Elt Ideal) Sc)
        (((cfg0.win 0).blk t).view.read (Elt Ideal) X j))
      = ((cfg0.win 3).blk t).view.read (Elt Ideal) (sampleRow X P Sc) := by
  obtain ⟨a0, a1, b0, b1, c0, c1, d0, d1⟩ := idx_facts t
  funext j
  show sampleAt (fun x => P (((cfg0.win 1).blk t).view.emb x)) (fun x => Sc (((cfg0.win 2).blk t).view.emb x))
      (X (((cfg0.win 0).blk t).view.emb j))
    = sampleAt P Sc (X (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1 + 1 * (j 0).val = win0_3.index t (0 : Fin 2) * 1 + 1 * (j 0).val; omega
    | ⟨1, _⟩ => show win0_0.index t (1 : Fin 2) * 16384 + 1 * (j 1).val = win0_3.index t (1 : Fin 2) * 16384 + 1 * (j 1).val; omega
  have h1 : ∀ x : S64x8.Idx, ((cfg0.win 1).blk t).view.emb x = x := fun x => by
    funext a; apply Fin.ext
    match a with
    | ⟨0, _⟩ => show win0_1.index t (0 : Fin 2) * 64 + 1 * (x 0).val = (x 0).val; omega
    | ⟨1, _⟩ => show win0_1.index t (1 : Fin 2) * 8 + 1 * (x 1).val = (x 1).val; omega
  have h2 : ∀ x : S1x2.Idx, ((cfg0.win 2).blk t).view.emb x = x := fun x => by
    funext a; apply Fin.ext
    match a with
    | ⟨0, _⟩ => show win0_2.index t (0 : Fin 2) * 1 + 1 * (x 0).val = (x 0).val; omega
    | ⟨1, _⟩ => show win0_2.index t (1 : Fin 2) * 2 + 1 * (x 1).val = (x 1).val; omega
  exact sampleAt_congr (funext fun x => congrArg P (h1 x)) (funext fun x => congrArg Sc (h2 x)) (congrArg X h0)

/-! ## What a point writes back -/

/-- Each input window's block at a point is read off the array the window stages, as the region finds it. -/
theorem iblk0_eq (c : Dev nD) (t : Fin cfg0.N) :
    (iblk m c 0 t : Vec Ideal S1x16384 .f32) = ((cfg0.win 0).blk t).view.read (Elt Ideal) (V m c main_v78) := rfl
theorem iblk1_eq (c : Dev nD) (t : Fin cfg0.N) :
    (iblk m c 1 t : Vec Ideal S64x8 .f32) = ((cfg0.win 1).blk t).view.read (Elt Ideal) (V m c main_v74) := rfl
theorem iblk2_eq (c : Dev nD) (t : Fin cfg0.N) :
    (iblk m c 2 t : Vec Ideal S1x2 .f32) = ((cfg0.win 2).blk t).view.read (Elt Ideal) (V m c main_v77) := rfl

/-- WHAT POINT `t` WRITES BACK is block `t` of the whole row computed from the three arrays as the region finds them:
    the body's one store covers the block, its payload at each index is the sample of the three input blocks there,
    and those are blocks of the three arrays. -/
theorem flushed_eq (c : Dev nD) (t : Fin cfg0.N) :
    (dats m 0 c).flushed 3 t = ((cfg0.win 3).blk t).view.read (Elt Ideal) (sampleRow (V m c main_v78) (V m c main_v74) (V m c main_v77)) := by
  show (cfg0.win 3).cut (grid0.coords t) ((dats m 0 c).after 3 t) = _
  rw [after3]
  unfold outBlock
  rw [View.canon_unit_zero hz]
  simp only [View.ld_unit_zero (S := S1x16384) hz, View.ld_unit_zero (S := S64x8) hz, View.ld_unit_zero (S := S1x2) hz]
  funext j
  refine (stored_block (iblk m c 0 t) (iblk m c 1 t) (iblk m c 2 t) j).trans ?_
  rw [iblk0_eq m c t, iblk1_eq m c t, iblk2_eq m c t]
  exact congrFun (blocks_of_row (V m c main_v78) (V m c main_v74) (V m c main_v77) t) j

/-! ## The blocks cover the row -/

/-- An index of the row is in point `t`'s block iff each coordinate is in the block's range on its axis. -/
theorem mem_blk (t : Fin cfg0.N) (i : S1x1048576.Idx) :
    i ∈ ((cfg0.win 3).blk t).view.set ↔ ∀ a : Fin 2, win0_3.index t a * S1x16384.size a ≤ (i a).val ∧ (i a).val < win0_3.index t a * S1x16384.size a + S1x16384.size a := by
  show i ∈ ((View.whole main_v79).slice (win0_3.rect t)).set ↔ _
  rw [View.set_slice_whole, Rect.mem_set_unit]
  exact Iff.rfl

/-- Column `j` of the row lies in the block of point `j / 16384`, which is written back. -/
theorem cover (i : S1x1048576.Idx) : ∃ t : Fin cfg0.N, (cfg0.win 3).flush t = true ∧ i ∈ ((cfg0.win 3).blk t).view.set := by
  have hi0 : (i 0).val < 1 := idx2_lt0 i
  have hi1 : (i 1).val < 1048576 := idx2_lt1 i
  have hN : cfg0.N = 64 := N_0
  obtain ⟨t, ht⟩ : ∃ t : Fin cfg0.N, t.val = (i 1).val / 16384 := ⟨⟨(i 1).val / 16384, by rw [hN]; omega⟩, rfl⟩
  obtain ⟨-, -, -, -, -, -, d0, d1⟩ := idx_facts t
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 16384 ≤ (i 1).val ∧ (i 1).val < win0_3.index t (1 : Fin 2) * 16384 + 16384; omega

/-- THE OUTPUT ARRAY after the region is the whole row. -/
theorem final (c : Dev nD) : (dats m 0 c).arrAt 3 cfg0.N = sampleRow (V m c main_v78) (V m c main_v74) (V m c main_v77) :=
  (dats m 0 c).arrAt_eq_of_cover 3 (sampleRow (V m c main_v78) (V m c main_v74) (V m c main_v77)) (fun t _ => flushed_eq m c t) cover

/-! ## The host operation after the region, and the run -/

/-- The program's result: the last host operation flattens the one-row array, so entry `i` of the result is column
    `i` of the row. -/
theorem tail_v80 (c : Dev nD) :
    Pipeline.afterTail₀ cfgs (dats m) 0 (V0 m) [hostOps1] c main_v80
      = (fun i : S1048576.Idx => sampleRow (V m c main_v78) (V m c main_v74) (V m c main_v77) (ix2 (0 : Fin 1) (i 0))) := by
  unfold Pipeline.afterTail₀
  show StableHlo.after hostOps1 _ (Proc.devRef .tc main_v80) = _
  after_results
  rw [Pipeline.withArrays_arr spec0 launch0.win.arr_inj c _ _ 3, final]
  funext i
  rw [eq_ix1 i]
  exact shapeCast_1a_a_apply _ _ (i 0)

/-- THE RUN, with the result named: from any memory with zero counters, every weakly fair execution of @main on the
    TensorCores terminates without fault; the result array ends at the whole row flattened — entry `i` is the sample at
    column `i` computed from the three arrays as the region finds them — and the ten argument arrays end as launched. -/
theorem run_value : θ_run defs (onTc (τ := τ) (main (F := Ideal))) ⟨m, fun _ => 0, ρ⟩ (fun r => ∀ c : Dev nD,
      r.2.mem ((c.tc : Thread nD τ).loc main_v80)
        = (fun i : S1048576.Idx => sampleRow (V m c main_v78) (V m c main_v74) (V m c main_v77) (ix2 (0 : Fin 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c).2 main_v80 (Pipeline.mem_restRefs_of main_v80 (by decide) (by decide))).trans (tail_v80 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

/-- info: 'Cert.KernelIdeal.HandValue.run_value' depends on axioms: [propext, Classical.choice, Quot.sound] -/
#guard_msgs in #print axioms run_value

end Cert.KernelIdeal.HandValue

end
-- ==== Proof.RefValue.lean ====
/-
  The reference's result, read at one sample.

  The reference works on whole 64 × 1048576 (and, for the envelopes, 1048576 × 64) arrays: every such array's entry at
  oscillator k and sample i is a function of the per-oscillator vectors at k, of the sample time `x0 i` and of two numbers
  (the phase offset and the largest sample time). Each broadcast, transpose and constant is read here once at the entry
  (k, i) (or (i, k)); the pointwise stages then chain, and the two sums down the oscillator axis are the reference forms of
  the modulator and carrier banks (`Algebra.modR`, `Algebra.carR`). The per-oscillator vectors themselves (softmax weights,
  envelope slopes, slope·offset products, angular frequencies), the phase offset and the largest sample time are left as
  the reference computes them.
-/
import proofs.«100778_j54966991454377_2_alg».proof.Proof.Gen.ReferenceIdeal.Read
import proofs.«100778_j54966991454377_2_alg».proof.Proof.Algebra
import Idealize.ShloMosaic.Lib.ValueIdx

noncomputable section

namespace Cert.FmBank.RefValue

open Idealize.ShloMosaic Idealize.ShloMosaic.ValueIdx Cert.ReferenceIdeal Cert.ReferenceIdeal.Read Cert.FmBank.Algebra

/-- An array of single-precision numbers of shape `s`, at the ideal values. -/
abbrev Arr (s : Shape) : Type := (⟨s, .f32⟩ : BufTy).Contents (Elt Ideal)

/-- Two indices whose coordinates compute to the same numbers are equal. -/
macro "same_index" : tactic => `(tactic| (funext a; fin_cases a <;> rfl))

section
variable (x0 : Arr S1048576) (x1 x2 x3 x4 : Arr S64) (x5 : Arr S1) (x6 x7 x8 x9 : Arr S64)
variable (k : Fin 64) (i : Fin 1048576)

/-! ## The modulator bank's arrays at (k, i) -/

/-- The sample times broadcast along the oscillators. -/
theorem mod_time : val_main_v13 (F := Ideal) x0 (ix2 k i) = x0 (ix1 i) := by
  rw [val_main_v13_apply, val_main_v11_apply]; exact congrArg x0 (by same_index)
/-- The modulator's angular frequencies broadcast along the samples. -/
theorem mod_freq : val_main_v12 (F := Ideal) x3 (ix2 k i) = val_main_v10 (F := Ideal) x3 (ix2 k (0 : Fin 1)) := by
  rw [val_main_v12_apply]; exact congrArg _ (by same_index)
/-- The phase offset broadcast everywhere. -/
theorem mod_phase_off : val_main_v16 (F := Ideal) x5 (ix2 k i) = val_main_v7 (F := Ideal) x5 (ix1 (0 : Fin 1)) := by
  rw [val_main_v16_apply, val_main_v15_apply]; exact congrArg _ (by same_index)
/-- Normalised time broadcast along the oscillators: the sample over the largest sample, less a half. -/
theorem mod_max : val_main_v45 (F := Ideal) x0 (ix1 i) = val_main_v44 (F := Ideal) x0 ix0 := by
  rw [val_main_v45_apply]
theorem mod_half : val_main_v47 (F := Ideal) (ix1 i) = halfW := by
  rw [val_main_v47_apply, val_main_cst_13_apply]; rfl
theorem mod_tn_vec : val_main_v48 (F := Ideal) x0 (ix1 i) = (tnR (x0 (ix1 i)) (val_main_v44 (F := Ideal) x0 ix0)) := by
  rw [val_main_v48_apply, val_main_v46_apply, mod_max, mod_half]; unfold tnR; simp only [Ideal.hostDivf_def, Ideal.hostUnary_sqrt_def, Ideal.hostUnary_cos_def, Ideal.hostUnary_sin_def, Ideal.addf_def, Ideal.mulf_def, Ideal.subf_def]
theorem mod_tn : val_main_v51 (F := Ideal) x0 (ix2 i k) = (tnR (x0 (ix1 i)) (val_main_v44 (F := Ideal) x0 ix0)) := by
  rw [val_main_v51_apply, val_main_v49_apply, ← mod_tn_vec]; exact congrArg (val_main_v48 (F := Ideal) x0) (by same_index)
/-- The modulator's envelope slopes broadcast along the samples. -/
theorem mod_slope : val_main_v52 (F := Ideal) x8 (ix2 i k) = val_main_v40 (F := Ideal) x8 (ix1 k) := by
  rw [val_main_v52_apply, val_main_v50_apply]; exact congrArg _ (by same_index)
/-- The modulator's slope·offset products broadcast along the samples. -/
theorem mod_soff : val_main_v56 (F := Ideal) x8 x9 (ix2 i k) = val_main_v54 (F := Ideal) x8 x9 (ix1 k) := by
  rw [val_main_v56_apply, val_main_v55_apply]; exact congrArg _ (by same_index)
/-- The modulator's weights broadcast along the samples. -/
theorem mod_weight : val_main_v65 (F := Ideal) x4 (ix2 i k) = val_main_v28 (F := Ideal) x4 (ix1 k) := by
  rw [val_main_v65_apply, val_main_v64_apply]; exact congrArg _ (by same_index)
theorem mod_one_a : val_main_v59 (F := Ideal) (ix2 i k) = oneW := by
  rw [val_main_v59_apply, val_main_cst_14_apply]; rfl
theorem mod_one_b : val_main_v62 (F := Ideal) (ix2 i k) = oneW := by
  rw [val_main_v62_apply, val_main_cst_15_apply]; rfl

/-- The modulator's envelope at sample i and oscillator k. -/
theorem mod_env : val_main_v63 (F := Ideal) x0 x8 x9 (ix2 i k) = envR (val_main_v40 (F := Ideal) x8 (ix1 k)) (val_main_v54 (F := Ideal) x8 x9 (ix1 k)) (tnR (x0 (ix1 i)) (val_main_v44 (F := Ideal) x0 ix0)) := by
  rw [val_main_v63_apply, val_main_v61_apply, val_main_v60_apply, val_main_v58_apply, val_main_v57_apply, val_main_v53_apply, mod_one_a, mod_one_b, mod_tn, mod_slope, mod_soff]
  unfold envR
  simp only [Ideal.hostDivf_def, Ideal.hostUnary_sqrt_def, Ideal.hostUnary_cos_def, Ideal.hostUnary_sin_def, Ideal.addf_def, Ideal.mulf_def, Ideal.subf_def]

/-- The modulator's amplitude (envelope times weight), transposed to oscillator-major. -/
theorem mod_amp : val_main_v67 (F := Ideal) x0 x4 x8 x9 (ix2 k i) = envR (val_main_v40 (F := Ideal) x8 (ix1 k)) (val_main_v54 (F := Ideal) x8 x9 (ix1 k)) (tnR (x0 (ix1 i)) (val_main_v44 (F := Ideal) x0 ix0)) * val_main_v28 (F := Ideal) x4 (ix1 k) := by
  rw [val_main_v67_apply, show idx_main_v67 (ix2 k i) = (ix2 i k) from by same_index, val_main_v66_apply, mod_env, mod_weight]
  simp only [Ideal.hostDivf_def, Ideal.hostUnary_sqrt_def, Ideal.hostUnary_cos_def, Ideal.hostUnary_sin_def, Ideal.addf_def, Ideal.mulf_def, Ideal.subf_def]

end

section
variable (x0 : Arr S1048576) (x1 x2 x3 x4 : Arr S64) (x5 : Arr S1) (x6 x7 x8 x9 : Arr S64)
variable (i : Fin 1048576)

/-- The modulator bank's sum at sample i. -/
theorem mod_sum : val_main_v69 (F := Ideal) x0 x3 x4 x5 x8 x9 (ix1 i) = modR (fun k => val_main_v10 (F := Ideal) x3 (ix2 k (0 : Fin 1))) (fun k => val_main_v28 (F := Ideal) x4 (ix1 k)) (fun k => val_main_v40 (F := Ideal) x8 (ix1 k)) (fun k => val_main_v54 (F := Ideal) x8 x9 (ix1 k)) (val_main_v7 (F := Ideal) x5 (ix1 (0 : Fin 1))) (x0 (ix1 i)) (tnR (x0 (ix1 i)) (val_main_v44 (F := Ideal) x0 ix0)) := by
  rw [val_main_v69_apply]
  unfold modR
  refine congrArg₂ (· + ·) (by rw [val_main_cst_16_apply]; rfl) (Finset.sum_congr rfl fun k _ => ?_)
  rw [show idx_main_v69 (ix1 i) k = (ix2 k i) from by same_index, val_main_v68_apply, val_main_v18_apply, val_main_v17_apply, val_main_v14_apply, mod_freq, mod_time, mod_phase_off, mod_amp]
  simp only [Ideal.hostDivf_def, Ideal.hostUnary_sqrt_def, Ideal.hostUnary_cos_def, Ideal.hostUnary_sin_def, Ideal.addf_def, Ideal.mulf_def, Ideal.subf_def]

end

section
variable (x0 : Arr S1048576) (x1 x2 x3 x4 : Arr S64) (x5 : Arr S1) (x6 x7 x8 x9 : Arr S64)
variable (k : Fin 64) (i : Fin 1048576)

/-! ## The carrier bank's arrays at (k, i) -/

theorem car_time : val_main_v75 (F := Ideal) x0 (ix2 k i) = x0 (ix1 i) := by
  rw [val_main_v75_apply, val_main_v73_apply]; exact congrArg x0 (by same_index)
theorem car_freq : val_main_v74 (F := Ideal) x1 (ix2 k i) = val_main_v72 (F := Ideal) x1 (ix2 k (0 : Fin 1)) := by
  rw [val_main_v74_apply]; exact congrArg _ (by same_index)
/-- The modulator bank's sum broadcast along the oscillators. -/
theorem car_mod : val_main_v78 (F := Ideal) x0 x3 x4 x5 x8 x9 (ix2 k i) = val_main_v69 (F := Ideal) x0 x3 x4 x5 x8 x9 (ix1 i) := by
  rw [val_main_v78_apply, val_main_v77_apply]; exact congrArg _ (by same_index)
theorem car_phase_off : val_main_v81 (F := Ideal) x5 (ix2 k i) = val_main_v7 (F := Ideal) x5 (ix1 (0 : Fin 1)) := by
  rw [val_main_v81_apply, val_main_v80_apply]; exact congrArg _ (by same_index)
theorem car_max : val_main_v110 (F := Ideal) x0 (ix1 i) = val_main_v109 (F := Ideal) x0 ix0 := by
  rw [val_main_v110_apply]
theorem car_half : val_main_v112 (F := Ideal) (ix1 i) = halfW := by
  rw [val_main_v112_apply, val_main_cst_28_apply]; rfl
theorem car_tn_vec : val_main_v113 (F := Ideal) x0 (ix1 i) = (tnR (x0 (ix1 i)) (val_main_v109 (F := Ideal) x0 ix0)) := by
  rw [val_main_v113_apply, val_main_v111_apply, car_max, car_half]; unfold tnR; simp only [Ideal.hostDivf_def, Ideal.hostUnary_sqrt_def, Ideal.hostUnary_cos_def, Ideal.hostUnary_sin_def, Ideal.addf_def, Ideal.mulf_def, Ideal.subf_def]
theorem car_tn : val_main_v116 (F := Ideal) x0 (ix2 i k) = (tnR (x0 (ix1 i)) (val_main_v109 (F := Ideal) x0 ix0)) := by
  rw [val_main_v116_apply, val_main_v114_apply, ← car_tn_vec]; exact congrArg (val_main_v113 (F := Ideal) x0) (by same_index)
theorem car_slope : val_main_v117 (F := Ideal) x6 (ix2 i k) = val_main_v105 (F := Ideal) x6 (ix1 k) := by
  rw [val_main_v117_apply, val_main_v115_apply]; exact congrArg _ (by same_index)
theorem car_soff : val_main_v121 (F := Ideal) x6 x7 (ix2 i k) = val_main_v119 (F := Ideal) x6 x7 (ix1 k) := by
  rw [val_main_v121_apply, val_main_v120_apply]; exact congrArg _ (by same_index)
theorem car_weight : val_main_v130 (F := Ideal) x2 (ix2 i k) = val_main_v93 (F := Ideal) x2 (ix1 k) := by
  rw [val_main_v130_apply, val_main_v129_apply]; exact congrArg _ (by same_index)
theorem car_one_a : val_main_v124 (F := Ideal) (ix2 i k) = oneW := by
  rw [val_main_v124_apply, val_main_cst_29_apply]; rfl
theorem car_one_b : val_main_v127 (F := Ideal) (ix2 i k) = oneW := by
  rw [val_main_v127_apply, val_main_cst_30_apply]; rfl

theorem car_env : val_main_v128 (F := Ideal) x0 x6 x7 (ix2 i k) = envR (val_main_v105 (F := Ideal) x6 (ix1 k)) (val_main_v119 (F := Ideal) x6 x7 (ix1 k)) (tnR (x0 (ix1 i)) (val_main_v109 (F := Ideal) x0 ix0)) := by
  rw [val_main_v128_apply, val_main_v126_apply, val_main_v125_apply, val_main_v123_apply, val_main_v122_apply, val_main_v118_apply, car_one_a, car_one_b, car_tn, car_slope, car_soff]
  unfold envR
  simp only [Ideal.hostDivf_def, Ideal.hostUnary_sqrt_def, Ideal.hostUnary_cos_def, Ideal.hostUnary_sin_def, Ideal.addf_def, Ideal.mulf_def, Ideal.subf_def]

theorem car_amp : val_main_v132 (F := Ideal) x0 x2 x6 x7 (ix2 k i) = envR (val_main_v105 (F := Ideal) x6 (ix1 k)) (val_main_v119 (F := Ideal) x6 x7 (ix1 k)) (tnR (x0 (ix1 i)) (val_main_v109 (F := Ideal) x0 ix0)) * val_main_v93 (F := Ideal) x2 (ix1 k) := by
  rw [val_main_v132_apply, show idx_main_v132 (ix2 k i) = (ix2 i k) from by same_index, val_main_v131_apply, car_env, car_weight]
  simp only [Ideal.hostDivf_def, Ideal.hostUnary_sqrt_def, Ideal.hostUnary_cos_def, Ideal.hostUnary_sin_def, Ideal.addf_def, Ideal.mulf_def, Ideal.subf_def]

end

section
variable (x0 : Arr S1048576) (x1 x2 x3 x4 : Arr S64) (x5 : Arr S1) (x6 x7 x8 x9 : Arr S64)
variable (i : Fin 1048576)

/-- THE REFERENCE AT SAMPLE i: the carrier bank's sum around the modulator bank's, in the reference's arithmetic. -/
theorem result_at : val_main_v134 (F := Ideal) x0 x1 x2 x3 x4 x5 x6 x7 x8 x9 (ix1 i) = carR (fun k => val_main_v72 (F := Ideal) x1 (ix2 k (0 : Fin 1))) (fun k => val_main_v93 (F := Ideal) x2 (ix1 k)) (fun k => val_main_v105 (F := Ideal) x6 (ix1 k)) (fun k => val_main_v119 (F := Ideal) x6 x7 (ix1 k)) (val_main_v7 (F := Ideal) x5 (ix1 (0 : Fin 1))) (x0 (ix1 i)) (tnR (x0 (ix1 i)) (val_main_v109 (F := Ideal) x0 ix0)) (modR (fun k => val_main_v10 (F := Ideal) x3 (ix2 k (0 : Fin 1))) (fun k => val_main_v28 (F := Ideal) x4 (ix1 k)) (fun k => val_main_v40 (F := Ideal) x8 (ix1 k)) (fun k => val_main_v54 (F := Ideal) x8 x9 (ix1 k)) (val_main_v7 (F := Ideal) x5 (ix1 (0 : Fin 1))) (x0 (ix1 i)) (tnR (x0 (ix1 i)) (val_main_v44 (F := Ideal) x0 ix0))) := by
  rw [val_main_v134_apply]
  unfold carR
  refine congrArg₂ (· + ·) (by rw [val_main_cst_31_apply]; rfl) (Finset.sum_congr rfl fun k _ => ?_)
  rw [show idx_main_v134 (ix1 i) k = (ix2 k i) from by same_index, val_main_v133_apply, val_main_v83_apply, val_main_v82_apply, val_main_v79_apply, val_main_v76_apply, car_freq, car_time, car_mod, mod_sum, car_phase_off, car_amp]
  simp only [Ideal.hostDivf_def, Ideal.hostUnary_sqrt_def, Ideal.hostUnary_cos_def, Ideal.hostUnary_sin_def, Ideal.addf_def, Ideal.mulf_def, Ideal.subf_def]

end

end Cert.FmBank.RefValue

end
-- ==== Proof.HostPrefix.lean ====
/-
  What the region finds in its three staged arrays, as functions of the program's ten arguments.

  Before the region the host computes, for each bank, the angular frequencies (2π times the frequencies), the softmax of
  the mixing weights, the envelope slopes 2^(10·sigmoid(·) − 2) and the slopes times half the hyperbolic tangent of the
  offsets; it lays the eight vectors side by side as the columns of a 64 × 8 slab. It computes the phase offset
  2π·sigmoid(·) and the reciprocal of the largest sample time and lays them as a 1 × 2 pair; and it views the sample
  times as a 1 × 1048576 row. The host computes the softmax, slope and offset vectors, the phase offset and the largest
  sample time by the same operations in the same order as the reference does, so they are named here by the reference's
  own stage functions.
-/
import proofs.«100778_j54966991454377_2_alg».proof.Proof.KernelIdealFrame
import proofs.«100778_j54966991454377_2_alg».proof.Proof.RefValue
import Idealize.ShloMosaic.Lib.StableHlo.Run
import Idealize.ShloMosaic.Lib.Pipeline.Value

noncomputable section

namespace Cert.FmBank.Prefix

open Idealize.ShloMosaic Idealize.ShloMosaic.TcCoe Idealize.SL.Sem Idealize.ShloMosaic.StableHlo Idealize.ShloMosaic.ValueIdx
open Cert.KernelIdeal Cert.KernelIdeal.Gen Cert.KernelIdeal.HandFrame Cert.FmBank.Algebra

/-- Two indices whose coordinates compute to the same numbers are equal. -/
macro "same_index" : tactic => `(tactic| (funext a; fin_cases a <;> rfl))

/-! ## Eight columns side by side -/

/-- Entry (k, n) of eight 64 × 1 columns laid side by side is entry k of column n: one statement per column. -/
theorem column0 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (0 : Fin 8)) = u0 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (0 : Fin 8)) 0 (by simp) S64x1 u0 rfl rfl 0
    (by first | rfl | decide | simp) (ix2 k (0 : Fin 1))
    (fun b hb => by
      match b with
      | ⟨0, _⟩ => rfl
      | ⟨1, _⟩ => exact absurd rfl hb)
    (by first | rfl | simp)
theorem column1 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (1 : Fin 8)) = u1 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (1 : Fin 8)) 1 (by simp) S64x1 u1 rfl rfl 1
    (by first | rfl | decide | simp) (ix2 k (0 : Fin 1))
    (fun b hb => by
      match b with
      | ⟨0, _⟩ => rfl
      | ⟨1, _⟩ => exact absurd rfl hb)
    (by first | rfl | simp)
theorem column2 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (2 : Fin 8)) = u2 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (2 : Fin 8)) 2 (by simp) S64x1 u2 rfl rfl 2
    (by first | rfl | decide | simp) (ix2 k (0 : Fin 1))
    (fun b hb => by
      match b with
      | ⟨0, _⟩ => rfl
      | ⟨1, _⟩ => exact absurd rfl hb)
    (by first | rfl | simp)
theorem column3 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (3 : Fin 8)) = u3 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (3 : Fin 8)) 3 (by simp) S64x1 u3 rfl rfl 3
    (by first | rfl | decide | simp) (ix2 k (0 : Fin 1))
    (fun b hb => by
      match b with
      | ⟨0, _⟩ => rfl
      | ⟨1, _⟩ => exact absurd rfl hb)
    (by first | rfl | simp)
theorem column4 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (4 : Fin 8)) = u4 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (4 : Fin 8)) 4 (by simp) S64x1 u4 rfl rfl 4
    (by first | rfl | decide | simp) (ix2 k (0 : Fin 1))
    (fun b hb => by
      match b with
      | ⟨0, _⟩ => rfl
      | ⟨1, _⟩ => exact absurd rfl hb)
    (by first | rfl | simp)
theorem column5 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (5 : Fin 8)) = u5 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (5 : Fin 8)) 5 (by simp) S64x1 u5 rfl rfl 5
    (by first | rfl | decide | simp) (ix2 k (0 : Fin 1))
    (fun b hb => by
      match b with
      | ⟨0, _⟩ => rfl
      | ⟨1, _⟩ => exact absurd rfl hb)
    (by first | rfl | simp)
theorem column6 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (6 : Fin 8)) = u6 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (6 : Fin 8)) 6 (by simp) S64x1 u6 rfl rfl 6
    (by first | rfl | decide | simp) (ix2 k (0 : Fin 1))
    (fun b hb => by
      match b with
      | ⟨0, _⟩ => rfl
      | ⟨1, _⟩ => exact absurd rfl hb)
    (by first | rfl | simp)
theorem column7 (u0 u1 u2 u3 u4 u5 u6 u7 : S64x1.Idx → EReal)
    (h : Shape.Concatenates (([⟨S64x1, u0⟩, ⟨S64x1, u1⟩, ⟨S64x1, u2⟩, ⟨S64x1, u3⟩, ⟨S64x1, u4⟩, ⟨S64x1, u5⟩, ⟨S64x1, u6⟩, ⟨S64x1, u7⟩] : List ((s : Shape) × (s.Idx → EReal))).map (·.1)) S64x8 (1 : Fin 2)) (k : Fin 64) :
    concatenate S64x8 (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (7 : Fin 8)) = u7 (ix2 k (0 : Fin 1)) :=
  concatenate_apply_piece (1 : Fin 2) [⟨S64x1, u0⟩, ⟨S64x1, u1⟩, ⟨S64x1, u2⟩, ⟨S64x1, u3⟩, ⟨S64x1, u4⟩, ⟨S64x1, u5⟩, ⟨S64x1, u6⟩, ⟨S64x1, u7⟩] h (ix2 k (7 : Fin 8)) 7 (by simp) S64x1 u7 rfl rfl 7
    (by first | rfl | decide | simp) (ix2 k (0 : Fin 1))
    (fun b hb => by
      match b with
      | ⟨0, _⟩ => rfl
      | ⟨1, _⟩ => exact absurd rfl hb)
    (by first | rfl | simp)

/-- A 64-vector viewed as a 64 × 1 column. -/
theorem column_of_vec (v : S64.Idx → EReal) (h : S64.BroadcastsInDim S64x1 ![0]) (k : Fin 64) :
    broadcastInDim S64x1 ![0] h v (ix2 k (0 : Fin 1)) = v (ix1 k) :=
  broadcastInDim_apply _ h v _ (ix1 k) (fun a => by
    match a with
    | ⟨0, _⟩ => simp)

/-- A number broadcast to a 64-vector. -/
theorem vec_of_scalar (v : S_.Idx → EReal) (h : S_.BroadcastsInDim S64 ![]) (k : Fin 64) :
    broadcastInDim S64 ![] h v (ix1 k) = v ix0 :=
  broadcastInDim_apply _ h v _ ix0 (fun a => a.elim0)

section
variable (m : (ℓ : Loc nD τ sig) → Buf (Elt Ideal) ℓ) (c : Dev nD)

/-! ## The three staged arrays as the host leaves them -/

set_option maxHeartbeats 4000000 in
set_option maxRecDepth 65536 in
/-- The parameter slab: the eight per-oscillator vectors as columns. -/
theorem slab_eq : (V m c main_v74 : S64x8.Idx → EReal)
    = concatenate S64x8 (1 : Fin 2) [⟨S64x1, broadcastInDim S64x1 ![0] bcast_S64_S64x1_0 (mulf (broadcastInDim S64 ![] bcast_S_S64 (constant (F := Ideal) S_ .f32 0x40C90FDB#32)) (m ((c.tc : Thread nD τ).loc main_arg3)))⟩,
        ⟨S64x1, broadcastInDim S64x1 ![0] bcast_S64_S64x1_0 (Cert.ReferenceIdeal.Read.val_main_v28 (F := Ideal) (m ((c.tc : Thread nD τ).loc main_arg4)))⟩,
        ⟨S64x1, broadcastInDim S64x1 ![0] bcast_S64_S64x1_0 (Cert.ReferenceIdeal.Read.val_main_v40 (F := Ideal) (m ((c.tc : Thread nD τ).loc main_arg8)))⟩,
        ⟨S64x1, broadcastInDim S64x1 ![0] bcast_S64_S64x1_0 (Cert.ReferenceIdeal.Read.val_main_v54 (F := Ideal) (m ((c.tc : Thread nD τ).loc main_arg8)) (m ((c.tc : Thread nD τ).loc main_arg9)))⟩,
        ⟨S64x1, broadcastInDim S64x1 ![0] bcast_S64_S64x1_0 (mulf (broadcastInDim S64 ![] bcast_S_S64 (constant (F := Ideal) S_ .f32 0x40C90FDB#32)) (m ((c.tc : Thread nD τ).loc main_arg1)))⟩,
        ⟨S64x1, broadcastInDim S64x1 ![0] bcast_S64_S64x1_0 (Cert.ReferenceIdeal.Read.val_main_v93 (F := Ideal) (m ((c.tc : Thread nD τ).loc main_arg2)))⟩,
        ⟨S64x1, broadcastInDim S64x1 ![0] bcast_S64_S64x1_0 (Cert.ReferenceIdeal.Read.val_main_v105 (F := Ideal) (m ((c.tc : Thread nD τ).loc main_arg6)))⟩,
        ⟨S64x1, broadcastInDim S64x1 ![0] bcast_S64_S64x1_0 (Cert.ReferenceIdeal.Read.val_main_v119 (F := Ideal) (m ((c.tc : Thread nD τ).loc main_arg6)) (m ((c.tc : Thread nD τ).loc main_arg7)))⟩]
        concatenates_S64x1_S64x1_S64x1_S64x1_S64x1_S64x1_S64x1_S64x1_S64x8_d1 := by
  show StableHlo.after hostOps0 (fun b => m (c, b)) (Proc.devRef .tc main_v74) = _
  after_results_simp
  rfl

set_option maxHeartbeats 40000000 in
set_option maxRecDepth 65536 in
/-- The scalar pair: the phase offset, then the reciprocal of the largest sample time. -/
theorem pair_eq : (V m c main_v77 : S1x2.Idx → EReal)
    = shapeCast S1x2 (concatenate S2 (0 : Fin 1) [⟨S1, mulf (broadcastInDim S1 ![] bcast_S_S1 (constant (F := Ideal) S_ .f32 0x40C90FDB#32)) (Host.divf (broadcastInDim S1 ![] bcast_S_S1 (constant (F := Ideal) S_ .f32 0x3F800000#32)) (addf (broadcastInDim S1 ![] bcast_S_S1 (constant (F := Ideal) S_ .f32 0x3F800000#32)) (Host.exp (Host.negf (m ((c.tc : Thread nD τ).loc main_arg5))))))⟩,
        ⟨S1, shapeCast S1 (Host.divf (constant (F := Ideal) S_ .f32 0x3F800000#32) (Host.reduce (FloatOps.maximumf (F := Ideal) (φ := .f32)) (m ((c.tc : Thread nD τ).loc main_arg0)) (constant (F := Ideal) S_ .f32 0xFF800000#32) reducesTo_S1048576_S_d0 h_S_)) shapeCasts_S_S1⟩]
        concatenates_S1_S1_S2_d0) shapeCasts_S2_S1x2 := by
  show StableHlo.after hostOps0 (fun b => m (c, b)) (Proc.devRef .tc main_v77) = _
  after_results
  rfl

set_option maxHeartbeats 4000000 in
set_option maxRecDepth 65536 in
/-- The sample times viewed as one row. -/
theorem times_eq : (V m c main_v78 : S1x1048576.Idx → EReal)
    = shapeCast S1x1048576 (m ((c.tc : Thread nD τ).loc main_arg0)) shapeCasts_S1048576_S1x1048576 := by
  show StableHlo.after hostOps0 (fun b => m (c, b)) (Proc.devRef .tc main_v78) = _
  after_results_simp
  rfl

end

end Cert.FmBank.Prefix

end
-- ==== Proof.PrefixEntries.lean ====
/-
  The entries of the three staged arrays: column n of the slab at oscillator k, the two entries of the pair, and the
  row of sample times at a sample — each as the reference's own vector or number at that index.
-/
import proofs.«100778_j54966991454377_2_alg».proof.Proof.HostPrefix
import Idealize.ShloMosaic.Lib.IdealHost

noncomputable section

namespace Cert.FmBank.Prefix

open Idealize.ShloMosaic Idealize.ShloMosaic.TcCoe Idealize.SL.Sem Idealize.ShloMosaic.StableHlo Idealize.ShloMosaic.ValueIdx
open Cert.KernelIdeal Cert.KernelIdeal.Gen Cert.KernelIdeal.HandFrame Cert.FmBank.Algebra

/-! ## The host's phase offset and largest sample time are the reference's -/

/-- The phase offset 2π·sigmoid(·), computed by the same operations as the reference's. -/
theorem phase_off_same (x5 : S1.Idx → EReal) :
    (mulf (broadcastInDim S1 ![] bcast_S_S1 (constant (F := Ideal) S_ .f32 0x40C90FDB#32)) (Host.divf (broadcastInDim S1 ![] bcast_S_S1 (constant (F := Ideal) S_ .f32 0x3F800000#32)) (addf (broadcastInDim S1 ![] bcast_S_S1 (constant (F := Ideal) S_ .f32 0x3F800000#32)) (Host.exp (Host.negf x5)))) : S1.Idx → EReal)
      = Cert.ReferenceIdeal.Read.val_main_v7 (F := Ideal) x5 := by
  unfold Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
    Cert.ReferenceIdeal.Read.val_main_cst Cert.ReferenceIdeal.Read.val_main_cst_0 Cert.ReferenceIdeal.Read.val_main_cst_1
  rfl

/-- The largest sample time, computed by the same fold as the reference's. -/
theorem max_same (x0 : S1048576.Idx → EReal) :
    (Host.reduce (FloatOps.maximumf (F := Ideal) (φ := .f32)) x0 (constant (F := Ideal) S_ .f32 0xFF800000#32) reducesTo_S1048576_S_d0 h_S_ : S_.Idx → EReal)
      = Cert.ReferenceIdeal.Read.val_main_v44 (F := Ideal) x0 := by
  unfold Cert.ReferenceIdeal.Read.val_main_v44 Cert.ReferenceIdeal.Read.val_main_cst_12
  rfl

section
variable (m : (ℓ : Loc nD τ sig) → Buf (Elt Ideal) ℓ) (c : Dev nD)

/-! ## Their entries -/

/-- Column 0: the modulator's angular frequencies. -/
theorem slab_at0 (k : Fin 64) : (V m c main_v74 : S64x8.Idx → EReal) (ix2 k (0 : Fin 8)) = Cert.ReferenceIdeal.Read.val_main_v10 (F := Ideal) (m ((c.tc : Thread nD τ).loc main_arg3)) (ix2 k (0 : Fin 1)) := by
  rw [slab_eq]
  refine (column0 _ _ _ _ _ _ _ _ _ k).trans ((column_of_vec _ _ k).trans ?_)
  rw [Cert.ReferenceIdeal.Read.val_main_v10_apply, Cert.ReferenceIdeal.Read.val_main_v9_apply, Cert.ReferenceIdeal.Read.val_main_cst_2_apply, Cert.ReferenceIdeal.Read.val_main_v8_apply]
  exact congrArg₂ FloatOps.mulf (vec_of_scalar _ _ k) (congrArg (m ((c.tc : Thread nD τ).loc main_arg3)) (by same_index))
/-- Column 1: the modulator's softmax weights. -/
theorem slab_at1 (k : Fin 64) : (V m c main_v74 : S64x8.Idx → EReal) (ix2 k (1 : Fin 8)) = Cert.ReferenceIdeal.Read.val_main_v28 (F := Ideal) (m ((c.tc : Thread nD τ).loc main_arg4)) (ix1 k) := by
  rw [slab_eq]; exact (column1 _ _ _ _ _ _ _ _ _ k).trans (column_of_vec _ _ k)
/-- Column 2: the modulator's envelope slopes. -/
theorem slab_at2 (k : Fin 64) : (V m c main_v74 : S64x8.Idx → EReal) (ix2 k (2 : Fin 8)) = Cert.ReferenceIdeal.Read.val_main_v40 (F := Ideal) (m ((c.tc : Thread nD τ).loc main_arg8)) (ix1 k) := by
  rw [slab_eq]; exact (column2 _ _ _ _ _ _ _ _ _ k).trans (column_of_vec _ _ k)
/-- Column 3: the modulator's slope·offset products. -/
theorem slab_at3 (k : Fin 64) : (V m c main_v74 : S64x8.Idx → EReal) (ix2 k (3 : Fin 8)) = Cert.ReferenceIdeal.Read.val_main_v54 (F := Ideal) (m ((c.tc : Thread nD τ).loc main_arg8)) (m ((c.tc : Thread nD τ).loc main_arg9)) (ix1 k) := by
  rw [slab_eq]; exact (column3 _ _ _ _ _ _ _ _ _ k).trans (column_of_vec _ _ k)
/-- Column 4: the carrier's angular frequencies. -/
theorem slab_at4 (k : Fin 64) : (V m c main_v74 : S64x8.Idx → EReal) (ix2 k (4 : Fin 8)) = Cert.ReferenceIdeal.Read.val_main_v72 (F := Ideal) (m ((c.tc : Thread nD τ).loc main_arg1)) (ix2 k (0 : Fin 1)) := by
  rw [slab_eq]
  refine (column4 _ _ _ _ _ _ _ _ _ k).trans ((column_of_vec _ _ k).trans ?_)
  rw [Cert.ReferenceIdeal.Read.val_main_v72_apply, Cert.ReferenceIdeal.Read.val_main_v71_apply, Cert.ReferenceIdeal.Read.val_main_cst_17_apply, Cert.ReferenceIdeal.Read.val_main_v70_apply]
  exact congrArg₂ FloatOps.mulf (vec_of_scalar _ _ k) (congrArg (m ((c.tc : Thread nD τ).loc main_arg1)) (by same_index))
/-- Column 5: the carrier's softmax weights. -/
theorem slab_at5 (k : Fin 64) : (V m c main_v74 : S64x8.Idx → EReal) (ix2 k (5 : Fin 8)) = Cert.ReferenceIdeal.Read.val_main_v93 (F := Ideal) (m ((c.tc : Thread nD τ).loc main_arg2)) (ix1 k) := by
  rw [slab_eq]; exact (column5 _ _ _ _ _ _ _ _ _ k).trans (column_of_vec _ _ k)
/-- Column 6: the carrier's envelope slopes. -/
theorem slab_at6 (k : Fin 64) : (V m c main_v74 : S64x8.Idx → EReal) (ix2 k (6 : Fin 8)) = Cert.ReferenceIdeal.Read.val_main_v105 (F := Ideal) (m ((c.tc : Thread nD τ).loc main_arg6)) (ix1 k) := by
  rw [slab_eq]; exact (column6 _ _ _ _ _ _ _ _ _ k).trans (column_of_vec _ _ k)
/-- Column 7: the carrier's slope·offset products. -/
theorem slab_at7 (k : Fin 64) : (V m c main_v74 : S64x8.Idx → EReal) (ix2 k (7 : Fin 8)) = Cert.ReferenceIdeal.Read.val_main_v119 (F := Ideal) (m ((c.tc : Thread nD τ).loc main_arg6)) (m ((c.tc : Thread nD τ).loc main_arg7)) (ix1 k) := by
  rw [slab_eq]; exact (column7 _ _ _ _ _ _ _ _ _ k).trans (column_of_vec _ _ k)

/-- The pair's first entry: the phase offset. -/
theorem pair_at0 : (V m c main_v77 : S1x2.Idx → EReal) (ix2 (0 : Fin 1) (0 : Fin 2)) = Cert.ReferenceIdeal.Read.val_main_v7 (F := Ideal) (m ((c.tc : Thread nD τ).loc main_arg5)) (ix1 (0 : Fin 1)) := by
  rw [pair_eq]
  refine (shapeCast_apply _ _ _ (ix1 (0 : Fin 2)) (by rw [Shape.rowMajor_val_one, Shape.rowMajor_val_two]; simp)).trans ?_
  refine (concatenate_pair_apply_left (t := S2) (s₁ := S1) (s₂ := S1) (0 : Fin 1) _ _ _ (ix1 (0 : Fin 2)) rfl (ix1 (0 : Fin 1)) (fun b => by
    match b with
    | ⟨0, _⟩ => rfl)).trans ?_
  exact congrFun (phase_off_same (m ((c.tc : Thread nD τ).loc main_arg5))) _

/-- The pair's second entry: one over the largest sample time. -/
theorem pair_at1 : (V m c main_v77 : S1x2.Idx → EReal) (ix2 (0 : Fin 1) (1 : Fin 2)) = Ideal.div oneW (Cert.ReferenceIdeal.Read.val_main_v44 (F := Ideal) (m ((c.tc : Thread nD τ).loc main_arg0)) ix0) := by
  rw [pair_eq]
  refine (shapeCast_apply _ _ _ (ix1 (1 : Fin 2)) (by rw [Shape.rowMajor_val_one, Shape.rowMajor_val_two]; simp)).trans ?_
  refine (concatenate_pair_apply_right (t := S2) (s₁ := S1) (s₂ := S1) (0 : Fin 1) _ _ _ (ix1 (1 : Fin 2)) rfl rfl (ix1 (0 : Fin 1)) (fun b hb => by
    match b with
    | ⟨0, _⟩ => exact absurd rfl hb) (by simp)).trans ?_
  refine (shapeCast_apply _ _ _ ix0 (by
    simp only [Shape.rowMajor_val_one]
    exact Nat.lt_one_iff.mp (lt_of_lt_of_eq (Shape.rowMajor _ ix0).isLt (by first | rfl | decide)))).trans ?_
  rw [hostDivf_apply, ValueIdx.constant_apply, max_same]

/-- The row of sample times is the first argument, entry for entry. -/
theorem times_at (i : Fin 1048576) : (V m c main_v78 : S1x1048576.Idx → EReal) (ix2 (0 : Fin 1) i) = (m ((c.tc : Thread nD τ).loc main_arg0)) (ix1 i) := by
  rw [times_eq]
  exact shapeCast_apply _ _ _ (ix1 i) (by rw [Shape.rowMajor_val_one, Shape.rowMajor_val_two]; simp)

end

end Cert.FmBank.Prefix

end
-- ==== Proof.Bridge.lean ====
/-
  The kernel's result array and the reference's are one function of the arguments, when the largest sample time is
  not zero.

  Sample i of the kernel's result is the carrier bank's sum around the modulator bank's, in the kernel's arithmetic, over
  the slab's columns, the pair and the i-th sample time; the host filled the slab and the pair with the very vectors and
  numbers the reference computes, and the row with the sample times. Sample i of the reference's result is the same
  sums in the reference's arithmetic. The two arithmetics agree (`Algebra.sample_eq`) because the largest sample time,
  which the kernel inverts once and the reference divides by, is not zero. The reference folds the sample times for
  their maximum twice, once per bank: the two folds are one term.
-/
import proofs.«100778_j54966991454377_2_alg».proof.Proof.KernelValue
import proofs.«100778_j54966991454377_2_alg».proof.Proof.PrefixEntries
import proofs.«100778_j54966991454377_2_alg».proof.Proof.RefValue

noncomputable section

namespace Cert.FmBank.Bridge

open Idealize.ShloMosaic Idealize.ShloMosaic.TcCoe Idealize.SL.Sem Idealize.ShloMosaic.ValueIdx
open Cert.KernelIdeal Cert.KernelIdeal.Gen Cert.KernelIdeal.HandFrame Cert.KernelIdeal.HandValue
open Cert.FmBank.Algebra Cert.FmBank.Prefix

/-- The reference's two folds for the largest sample time are one term. -/
theorem max_twice (x0 : Cert.ReferenceIdeal.S1048576.Idx → EReal) :
    Cert.ReferenceIdeal.Read.val_main_v109 (F := Ideal) x0 = Cert.ReferenceIdeal.Read.val_main_v44 (F := Ideal) x0 := by
  unfold Cert.ReferenceIdeal.Read.val_main_v109 Cert.ReferenceIdeal.Read.val_main_v44 Cert.ReferenceIdeal.Read.val_main_cst_27 Cert.ReferenceIdeal.Read.val_main_cst_12
  rfl

section
variable (m : (ℓ : Loc nD τ sig) → Buf (Elt Ideal) ℓ) (c : Dev nD)

/-- Sample j of the kernel's result is sample j of the reference's function of the same arguments. -/
theorem sample_is_reference (hM : Cert.ReferenceIdeal.Read.val_main_v44 (F := Ideal) (m ((c.tc : Thread nD τ).loc main_arg0)) ix0 ≠ 0) (j : Fin 1048576) :
    sampleRow (V m c main_v78) (V m c main_v74) (V m c main_v77) (ix2 (0 : Fin 1) j)
      = Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix1 j) := by
  rw [Cert.FmBank.RefValue.result_at, max_twice, sampleRow_apply]
  simp only [slab_at0 m c, slab_at1 m c, slab_at2 m c, slab_at3 m c, slab_at4 m c, slab_at5 m c, slab_at6 m c, slab_at7 m c,
    pair_at0 m c, pair_at1 m c, times_at m c]
  exact sample_eq _ _ _ _ _ _ _ _ _ _ _ hM

/-- The kernel's whole result array is the reference's function of the same arguments. -/
theorem result_is_reference (hM : Cert.ReferenceIdeal.Read.val_main_v44 (F := Ideal) (m ((c.tc : Thread nD τ).loc main_arg0)) ix0 ≠ 0) :
    (fun i : S1048576.Idx => sampleRow (V m c main_v78) (V m c main_v74) (V m c main_v77) (ix2 (0 : Fin 1) (i 0)))
      = Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  funext i
  exact (sample_is_reference m c hM (i 0)).trans
    (congrArg (Cert.ReferenceIdeal.Read.val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (eq_ix1 i).symm)

end

end Cert.FmBank.Bridge

end
-- ==== Proof.PreDecode.lean ====
/-
  What the precondition says about the largest sample time.

  The precondition is a conjunction of eleven bits: ten say that an argument array holds finite numbers only, the last
  that the largest sample time is not zero. The certificate uses the last one alone: where the largest sample time is
  zero the reference divides zero by zero, and only away from there do the kernel's product with a reciprocal and the
  reference's quotient agree.
-/
import proofs.«100778_j54966991454377_2_alg».proof.Pre_finite_inputs
import proofs.«100778_j54966991454377_2_alg».proof.Proof.Gen.ReferenceIdeal.Read
import Idealize.ShloMosaic.Lib.Affine
import Idealize.ShloMosaic.Lib.ValueIdx
import Idealize.ShloMosaic.PureOps.Ideal.Laws

noncomputable section

namespace Cert.FmBank.PreDecode

open Idealize.ShloMosaic Idealize.ShloMosaic.ValueIdx

/-- The largest sample time as the precondition computes it is the largest sample time as the reference computes it:
    the same fold of `max` from `-∞` over the sample times. -/
theorem max_same [hP : Cert.Pre_finite_inputs.Facts] (a0 : Cert.Pre_finite_inputs.S1048576.Idx → EReal) :
    (Host.reduce (FloatOps.maximumf (F := Ideal) (φ := .f32)) a0 (constant (F := Ideal) Cert.Pre_finite_inputs.S_ .f32 0xFF800000#32)
        hP.reducesTo_S1048576_S_d0 hP.h_S_ : Cert.Pre_finite_inputs.S_.Idx → EReal)
      = Cert.ReferenceIdeal.Read.val_main_v44 (F := Ideal) a0 := by
  unfold Cert.ReferenceIdeal.Read.val_main_v44 Cert.ReferenceIdeal.Read.val_main_cst_12
  rfl

set_option maxRecDepth 65536 in
/-- Under the precondition the largest sample time is not zero. -/
theorem max_ne_zero [hP : Cert.Pre_finite_inputs.Facts]
    (a0 : FVec Ideal Cert.Pre_finite_inputs.S1048576 .f32) (a1 a2 a3 a4 : FVec Ideal Cert.Pre_finite_inputs.S64 .f32)
    (a5 : FVec Ideal Cert.Pre_finite_inputs.S1 .f32) (a6 a7 a8 a9 : FVec Ideal Cert.Pre_finite_inputs.S64 .f32)
    (h : Cert.Pre_finite_inputs.fn (F := Ideal) a0 a1 a2 a3 a4 a5 a6 a7 a8 a9 = fun _ => 1#1) :
    Cert.ReferenceIdeal.Read.val_main_v44 (F := Ideal) a0 ix0 ≠ 0 := by
  have h0 := congrFun h ix0
  dsimp only [Cert.Pre_finite_inputs.fn, Cert.Pre_finite_inputs.fn_part1, Cert.Pre_finite_inputs.fn_part2,
    Cert.Pre_finite_inputs.fn_part3] at h0
  have h1 := (IntOp.andi_eq_one.mp h0).2
  rw [ValueIdx.cmpf_apply, ValueIdx.constant_apply, Ideal.ofBits_zero_f32] at h1
  rw [← max_same a0]
  intro hM
  rw [hM] at h1
  change Ideal.cmp .une (0 : EReal) 0 = 1#1 at h1
  simp [Ideal.cmp] at h1

end Cert.FmBank.PreDecode

end
-- ==== Proof.lean ====
/-
  An FM synthesiser: two banks of 64 oscillators over 1048576 sample times. Each oscillator's wave (a cosine in the
  modulator bank, a sine in the carrier bank, whose phase also holds the modulator bank's sum at that sample) is
  weighted by a softmax weight and a bell-shaped envelope `(1 + (s·tn + s·off)²)^(-1/2)` of the normalised time
  `tn = t / max t − 1/2`; the result is the carrier bank's sum at every sample.

  The kernel streams the sample times through a grid of 64 blocks of 16384; the per-oscillator vectors reach it as the
  columns of a 64 × 8 slab and the phase offset and the RECIPROCAL of the largest sample time as a pair. The reference
  forms the same sums on whole arrays. At the ideal values the two differ in three spellings only: the kernel multiplies
  by `1 / max t` where the reference divides by `max t`; it takes a reciprocal square root where the reference divides one
  by a square root; and its sums start from nothing where the reference's start from the zero word. The second and third
  are laws of the extended reals that hold with no hypothesis (`1 + a²` is never negative). The first holds exactly when
  `max t ≠ 0` — at `max t = 0` the reference divides zero by zero — which is the precondition's last conjunct.

  The frames: each kernel program is host operations, one pipelined region, one host operation; its body reads its
  input blocks whole and overwrites its output block whole (Proof/KernelFrame.lean, Proof/KernelIdealFrame.lean). The
  reference has no kernel: its frame is its run with the result dropped. The idealization rewrote nothing, so
  `preserves` is trivial.
-/
import proofs.«100778_j54966991454377_2_alg».proof.Defs
import proofs.«100778_j54966991454377_2_alg».proof.Proof.Gen.Kernel
import proofs.«100778_j54966991454377_2_alg».proof.Proof.Gen.KernelIdeal
import proofs.«100778_j54966991454377_2_alg».proof.Proof.Gen.ReferenceIdeal
import proofs.«100778_j54966991454377_2_alg».proof.Proof.Gen.ReferenceIdeal.Run
import proofs.«100778_j54966991454377_2_alg».proof.Proof.Gen.ReferenceIdeal.Read
import proofs.«100778_j54966991454377_2_alg».proof.Proof.Gen.Pre_finite_inputs
import proofs.«100778_j54966991454377_2_alg».proof.Proof.KernelFrame
import proofs.«100778_j54966991454377_2_alg».proof.Proof.KernelIdealFrame
import proofs.«100778_j54966991454377_2_alg».proof.Proof.KernelValue
import proofs.«100778_j54966991454377_2_alg».proof.Proof.Bridge
import proofs.«100778_j54966991454377_2_alg».proof.Proof.PreDecode
import Idealize.ShloMosaic.Adequacy
import Idealize.ShloMosaic.Init

noncomputable section

namespace Cert.Proof

open Idealize.ShloMosaic Idealize.ShloMosaic.ValueIdx Idealize.SL.Sem

/-- The kernel as printed runs to its end and leaves its arguments as launched. -/
theorem frame_kernel : Cert.frame_Kernel := fun m ρ _ => Cert.Kernel.HandFrame.frame m ρ

/-- So does its reading at the ideal values. -/
theorem frame_kernel_ideal : Cert.frame_KernelIdeal := fun m ρ _ => Cert.KernelIdeal.HandFrame.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both programs end with the reference's function of the arguments in
    their result arrays: the kernel by its value leg and the bridge (the largest sample time is not zero, by the
    precondition), the reference by its run, rewritten along the agreement. -/
theorem algebraic : Cert.algebraic_KernelIdeal_ReferenceIdeal := by
  intro m ρ m' ρ' hpre hagree
  have hM : ∀ c : Dev Cert.KernelIdeal.nD,
      Cert.ReferenceIdeal.Read.val_main_v44 (F := Ideal) (m ((c.tc : Thread Cert.KernelIdeal.nD Cert.KernelIdeal.τ).loc Cert.KernelIdeal.main_arg0)) ix0 ≠ 0 := fun c =>
    Cert.FmBank.PreDecode.max_ne_zero _ _ _ _ _ _ _ _ _ _ (hpre c)
  refine ⟨fun c => Cert.ReferenceIdeal.Read.val_main_v134 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.FmBank.Bridge.result_is_reference m c (hM c)), (h c).2⟩)
      (Cert.KernelIdeal.HandValue.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v134_eq]
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
